-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x128 : Shape := ⟨2, ![50000, 128]⟩
abbrev S2x800000 : Shape := ⟨2, ![2, 800000]⟩
abbrev S128x64 : Shape := ⟨2, ![128, 64]⟩
abbrev S128 : Shape := ⟨1, ![128]⟩
abbrev S128x128 : Shape := ⟨2, ![128, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x64 .f32) (main_arg1 : FVec F S50000x128 .f32) (main_arg2 : IVec S2x800000 32) (main_arg3 : FVec F S128x64 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x64 : Shape := ⟨2, ![50000, 64]⟩
abbrev S50000x128 : Shape := ⟨2, ![50000, 128]⟩
abbrev S2x800000 : Shape := ⟨2, ![2, 800000]⟩
abbrev S128x64 : Shape := ⟨2, ![128, 64]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S64x128 : Shape := ⟨2, ![64, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S2000x128 : Shape := ⟨2, ![2000, 128]⟩

abbrev nBuf : Space → Nat
  | .hbm => 91
  | .vmem => 48
  | .smem => 0
  | _ => 0

abbrev bufTy : (tb : Table) → Fin (tcTables nBuf tb) → BufTy
  | .hbm, ⟨0, _⟩ => ⟨S50000x64, .f32⟩
  | .hbm, ⟨1, _⟩ => ⟨S50000x128, .f32⟩
  | .hbm, ⟨2, _⟩ => ⟨S2x800000, .i32⟩
  | .hbm, ⟨3, _⟩ => ⟨S128x64, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S64x128, .f32⟩
  | .hbm, ⟨18, _⟩ => ⟨S50000x128, .f32⟩
  | .hbm, ⟨19, _⟩ => ⟨S1x128, .f32⟩
  | .hbm, ⟨20, _⟩ => ⟨S50000x128, .f32⟩
  | .hbm, ⟨21, _⟩ => ⟨S50000x128, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S128, .f32⟩
  | .hbm, ⟨86, _⟩ => ⟨S1x128, .f32⟩
  | .hbm, ⟨87, _⟩ => ⟨S128x128, .f32⟩
  | .hbm, ⟨88, _⟩ => ⟨S1x128, .f32⟩
  | .hbm, ⟨89, _⟩ => ⟨S1x128, .f32⟩
  | .hbm, ⟨90, _⟩ => ⟨S1x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S128x128, .f32⟩
  | .local _ .vmem, ⟨41, _⟩ => ⟨S1x128, .f32⟩
  | .local _ .vmem, ⟨42, _⟩ => ⟨S128x128, .f32⟩
  | .local _ .vmem, ⟨43, _⟩ => ⟨S1x128, .f32⟩
  | .local _ .vmem, ⟨44, _⟩ => ⟨S128x128, .f32⟩
  | .local _ .vmem, ⟨45, _⟩ => ⟨S1x128, .f32⟩
  | .local _ .vmem, ⟨46, _⟩ => ⟨S2000x128, .f32⟩
  | .local _ .vmem, ⟨47, _⟩ => ⟨S2000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_1 : Ref sig .tc := ⟨.hbm, 42, rfl⟩
abbrev main_v26 : Ref sig .tc := ⟨.hbm, 43, rfl⟩
abbrev main_v27 : Ref sig .tc := ⟨.hbm, 44, rfl⟩
abbrev main_c_2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_4 : Ref sig .tc := ⟨.hbm, 56, rfl⟩
abbrev main_v37 : Ref sig .tc := ⟨.hbm, 57, rfl⟩
abbrev main_v38 : Ref sig .tc := ⟨.hbm, 58, rfl⟩
abbrev main_c_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_7 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_9 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg8_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg7_0 : Ref sig .tc := ⟨.vmem, 45, rfl⟩
abbrev cc3_stg8_0 : Ref sig .tc := ⟨.vmem, 46, rfl⟩
abbrev cc3_stg8_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem8_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem3_0 : DmaSem sig := 41
abbrev cc3_sem4_0 : DmaSem sig := 42
abbrev cc3_sem5_0 : DmaSem sig := 43
abbrev cc3_sem6_0 : DmaSem sig := 44
abbrev cc3_sem7_0 : DmaSem sig := 45
abbrev cc3_sem8_0 : DmaSem sig := 46
abbrev cc3_sem8_1 : DmaSem sig := 47

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x64_S64x128_1_0 : S128x64.Transposes [1, 0] S64x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S128x128_S128x128_1_0 : S128x128.Transposes [1, 0] S128x128
  shapeCasts_S128_S1x128 : S128.ShapeCasts S1x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reducesTo_S50000x128_S128_d0 : S50000x128.ReducesTo [0] S128
  h_S_ : 0 < S_.numel
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S1x128_S128x128_S1x128_1_0_0_1_n_n_wf : DotDims.WF S1x128 S128x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .f32 = 32 ∨ (Rect.block (s := S50000x128) S2000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S50000x128.size a
  hwx2_8 : ∀ i : grid2.Coords, EltTy.bits .f32 = 32 ∨ (Rect.block (s := S50000x128) S2000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x128.size a ≤ S50000x128.size a
  hwx3_8 : ∀ i : grid3.Coords, EltTy.bits .f32 = 32 ∨ (Rect.block (s := S50000x128) S2000x128.size (cc3_transform_8 i) (hinb3_8 i)).WholeWords (EltTy.packing .f32)

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v35) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v36) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v46) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v13) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v11) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v14) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v47) S2000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v57) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v9) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v12) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v10) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v13) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v11) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v14) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v58) S2000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S50000x64 : Shape := ⟨2, ![50000, 64]⟩
abbrev S50000x128 : Shape := ⟨2, ![50000, 128]⟩
abbrev S2x800000 : Shape := ⟨2, ![2, 800000]⟩
abbrev S128x64 : Shape := ⟨2, ![128, 64]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S64x128 : Shape := ⟨2, ![64, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩

abbrev nBuf : Space → Nat
  | .hbm => 185
  | .vmem => 0
  | .smem => 0
  | _ => 0

abbrev hbmTy0_0 (i : Nat) : BufTy := match i % 128 with
  | 0 => ⟨S50000x64, .f32⟩
  | 1 => ⟨S50000x128, .f32⟩
  | 2 => ⟨S2x800000, .i32⟩
  | 3 => ⟨S128x64, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S1x800000, .i32⟩
  | 14 => ⟨S800000, .i32⟩
  | 15 => ⟨S1x800000, .i32⟩
  | 16 => ⟨S800000, .i32⟩
  | 17 => ⟨S64x128, .f32⟩
  | 18 => ⟨S50000x128, .f32⟩
  | 19 => ⟨S1x128, .f32⟩
  | 20 => ⟨S50000x128, .f32⟩
  | 21 => ⟨S50000x128, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S_, .f32⟩
  | 32 => ⟨S50000x128, .f32⟩
  | 33 => ⟨S800000x1, .i32⟩
  | 34 => ⟨S50000x128, .f32⟩
  | 35 => ⟨S128x128, .f32⟩
  | 36 => ⟨S50000x128, .f32⟩
  | 37 => ⟨S1x128, .f32⟩
  | 38 => ⟨S50000x128, .f32⟩
  | 39 => ⟨S50000x128, .f32⟩
  | 40 => ⟨S_, .f32⟩
  | 41 => ⟨S50000x128, .f32⟩
  | 42 => ⟨S50000x128, .f32⟩
  | 43 => ⟨S128x128, .f32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S128x128, .f32⟩
  | 52 => ⟨S50000x128, .f32⟩
  | 53 => ⟨S1x128, .f32⟩
  | 54 => ⟨S50000x128, .f32⟩
  | 55 => ⟨S50000x128, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S_, .f32⟩
  | 71 => ⟨S50000x128, .f32⟩
  | 72 => ⟨S800000x1, .i32⟩
  | 73 => ⟨S50000x128, .f32⟩
  | 74 => ⟨S128x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S128x128, .f32⟩
  | 83 => ⟨S50000x128, .f32⟩
  | 84 => ⟨S1x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S128x128, .f32⟩
  | 91 => ⟨S50000x128, .f32⟩
  | 92 => ⟨S1x128, .f32⟩
  | 93 => ⟨S50000x128, .f32⟩
  | 94 => ⟨S50000x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x128, .f32⟩
  | 109 => ⟨S_, .f32⟩
  | 110 => ⟨S50000x128, .f32⟩
  | 111 => ⟨S800000x1, .i32⟩
  | 112 => ⟨S50000x128, .f32⟩
  | 113 => ⟨S128x128, .f32⟩
  | 114 => ⟨S50000x128, .f32⟩
  | 115 => ⟨S1x128, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S128x128, .f32⟩
  | 122 => ⟨S50000x128, .f32⟩
  | 123 => ⟨S1x128, .f32⟩
  | 124 => ⟨S50000x128, .f32⟩
  | 125 => ⟨S50000x128, .f32⟩
  | 126 => ⟨S_, .f32⟩
  | 127 => ⟨S50000x128, .f32⟩
  | _ => ⟨S50000x64, .f32⟩

abbrev hbmTy0_1 (i : Nat) : BufTy := match i % 128 with
  | 0 => ⟨S50000x128, .f32⟩
  | 1 => ⟨S128x128, .f32⟩
  | 2 => ⟨S50000x128, .f32⟩
  | 3 => ⟨S1x128, .f32⟩
  | 4 => ⟨S50000x128, .f32⟩
  | 5 => ⟨S50000x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x128, .f32⟩
  | 20 => ⟨S_, .f32⟩
  | 21 => ⟨S50000x128, .f32⟩
  | 22 => ⟨S800000x1, .i32⟩
  | 23 => ⟨S50000x128, .f32⟩
  | 24 => ⟨S128x128, .f32⟩
  | 25 => ⟨S50000x128, .f32⟩
  | 26 => ⟨S1x128, .f32⟩
  | 27 => ⟨S50000x128, .f32⟩
  | 28 => ⟨S50000x128, .f32⟩
  | 29 => ⟨S_, .f32⟩
  | 30 => ⟨S50000x128, .f32⟩
  | 31 => ⟨S50000x128, .f32⟩
  | 32 => ⟨S128x128, .f32⟩
  | 33 => ⟨S50000x128, .f32⟩
  | 34 => ⟨S1x128, .f32⟩
  | 35 => ⟨S50000x128, .f32⟩
  | 36 => ⟨S50000x128, .f32⟩
  | 37 => ⟨S_, .f32⟩
  | 38 => ⟨S50000x128, .f32⟩
  | 39 => ⟨S50000x128, .f32⟩
  | 40 => ⟨S128x128, .f32⟩
  | 41 => ⟨S50000x128, .f32⟩
  | 42 => ⟨S1x128, .f32⟩
  | 43 => ⟨S50000x128, .f32⟩
  | 44 => ⟨S50000x128, .f32⟩
  | 45 => ⟨S50000x128, .f32⟩
  | 46 => ⟨S50000x128, .f32⟩
  | 47 => ⟨S_, .f32⟩
  | 48 => ⟨S50000x128, .f32⟩
  | 49 => ⟨S50000x128, .f32⟩
  | 50 => ⟨S_, .f32⟩
  | 51 => ⟨S128, .f32⟩
  | 52 => ⟨S1x128, .f32⟩
  | 53 => ⟨S128x128, .f32⟩
  | 54 => ⟨S1x128, .f32⟩
  | 55 => ⟨S1x128, .f32⟩
  | 56 => ⟨S1x128, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call0_cst : Ref sig .tc := ⟨.hbm, 40, rfl⟩
abbrev main_call0_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call1_cst : Ref sig .tc := ⟨.hbm, 48, rfl⟩
abbrev main_call1_v0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call2_cst : Ref sig .tc := ⟨.hbm, 58, rfl⟩
abbrev main_call2_v0 : Ref sig .tc := ⟨.hbm, 59, rfl⟩
abbrev main_v38 : Ref sig .tc := ⟨.hbm, 60, rfl⟩
abbrev main_c_1 : Ref sig .tc := ⟨.hbm, 61, rfl⟩
abbrev main_v39 : Ref sig .tc := ⟨.hbm, 62, rfl⟩
abbrev main_v40 : Ref sig .tc := ⟨.hbm, 63, rfl⟩
abbrev main_c_2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_3 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call3_cst : Ref sig .tc := ⟨.hbm, 79, rfl⟩
abbrev main_call3_v0 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_call4_cst : Ref sig .tc := ⟨.hbm, 87, rfl⟩
abbrev main_call4_v0 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_call5_cst : Ref sig .tc := ⟨.hbm, 97, rfl⟩
abbrev main_call5_v0 : Ref sig .tc := ⟨.hbm, 98, rfl⟩
abbrev main_v68 : Ref sig .tc := ⟨.hbm, 99, rfl⟩
abbrev main_c_4 : Ref sig .tc := ⟨.hbm, 100, rfl⟩
abbrev main_v69 : Ref sig .tc := ⟨.hbm, 101, rfl⟩
abbrev main_v70 : Ref sig .tc := ⟨.hbm, 102, rfl⟩
abbrev main_c_5 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_6 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_call6_cst : Ref sig .tc := ⟨.hbm, 118, rfl⟩
abbrev main_call6_v0 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_call7_cst : Ref sig .tc := ⟨.hbm, 126, rfl⟩
abbrev main_call7_v0 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_call8_cst : Ref sig .tc := ⟨.hbm, 136, rfl⟩
abbrev main_call8_v0 : Ref sig .tc := ⟨.hbm, 137, rfl⟩
abbrev main_v98 : Ref sig .tc := ⟨.hbm, 138, rfl⟩
abbrev main_c_7 : Ref sig .tc := ⟨.hbm, 139, rfl⟩
abbrev main_v99 : Ref sig .tc := ⟨.hbm, 140, rfl⟩
abbrev main_v100 : Ref sig .tc := ⟨.hbm, 141, rfl⟩
abbrev main_c_8 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_9 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_call9_cst : Ref sig .tc := ⟨.hbm, 157, rfl⟩
abbrev main_call9_v0 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_call10_cst : Ref sig .tc := ⟨.hbm, 165, rfl⟩
abbrev main_call10_v0 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_call11_cst : Ref sig .tc := ⟨.hbm, 175, rfl⟩
abbrev main_call11_v0 : Ref sig .tc := ⟨.hbm, 176, rfl⟩
abbrev main_v128 : Ref sig .tc := ⟨.hbm, 177, rfl⟩
abbrev main_cst_10 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x64_S64x128_1_0 : S128x64.Transposes [1, 0] S64x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  reducesTo_S50000x128_S128_d0 : S50000x128.ReducesTo [0] S128
  h_S_ : 0 < S_.numel
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S1x128_S128x128_S1x128_1_0_0_1_n_n_wf : DotDims.WF S1x128 S128x128 S1x128 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

class Facts : Prop extends Facts₀ where

variable [Facts]
-- ==== Proof.KernelRun.lean ====
/-
  The program's run with its result named.

  Every weakly fair execution of the program terminates without a fault, and in its final state the result buffer
  holds what the last segment boundary's contents have there, and every argument array is as launched.  The run
  is the library's run of a program of several pallas calls over the generated segments; the final thread state
  holds every unscoped buffer at the last boundary's contents, and the result buffer is one of them.
-/
import proofs.«177621_j12335146074640_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and the arguments unchanged. -/
theorem run_value : θ_run defs (onTc (τ := τ) (main (F := F))) ⟨m, fun _ => 0, ρ⟩ (fun r => ∀ c : Dev nD,
      r.2.mem ((c.tc : Thread nD τ).loc main_v64) = W9 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v64 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c)⟩)

end Cert.KernelIdeal.Run

end
-- ==== Proof.MlpSpec.lean ====
/-
  The node update as a function on the extended reals, entry by entry.

  One round of the message-passing network takes, for every node (a row), the aggregated messages `a` (128 numbers),
  passes them through three dense layers, `relu (a·W₁ + b₁)`, `relu (·W₂ + b₂)`, `tanh (·W₃ + b₃)`, adds the node's own
  projected features `x` and clamps at zero.  Entry `c` of a dense layer is the sum over the contracted axis of
  `a k · W k c`, plus `b c`; entry `c` of the update therefore depends on the whole row of aggregated messages and on
  nothing of any other row.  Sums over a finite type of extended reals are well defined (addition is commutative and
  associative there), so no finiteness is needed to state or to compare them.

  The clamp's zero is kept as the f32 word both programs spell it with; it is never evaluated.
-/
import Idealize.ShloMosaic.PureOps.Ideal.Laws
import Idealize.ShloMosaic.Lib.ValueIdx

noncomputable section

namespace Cert.Mlp

open Idealize.ShloMosaic Idealize.ShloMosaic.ValueIdx

/-- A weight matrix: 128 rows (the contracted axis) by 128 columns. -/
abbrev Mat : Type := (⟨2, ![128, 128]⟩ : Shape).Idx → EReal

/-- The zero the clamps compare against, as the f32 word `0x00000000`. -/
def zero : EReal := Ideal.ofBits .f32 0x00000000#32

/-- The clamp at zero. -/
def relu (x : EReal) : EReal := max x zero

/-- Entry `c` of a dense layer: the row `a` against column `c` of `W`, plus the bias. -/
def dense (a : Fin 128 → EReal) (W : Mat) (b : Fin 128 → EReal) (c : Fin 128) : EReal :=
  (∑ k : Fin 128, a k * W (ix2 k c)) + b c

/-- Entry `c` of a node's update from its row `a` of aggregated messages and its own entry `x`. -/
def entry (a : Fin 128 → EReal) (x : EReal) (W₁ W₂ W₃ : Mat) (b₁ b₂ b₃ : Fin 128 → EReal) (c : Fin 128) : EReal :=
  relu (x + Ideal.tanh (dense (fun k => relu (dense (fun j => relu (dense a W₁ b₁ j)) W₂ b₂ k)) W₃ b₃ c))

/-- The update of `n` nodes at once: row `i 0`, column `i 1`. -/
def update {n : Nat} (agg xw : (⟨2, ![n, 128]⟩ : Shape).Idx → EReal) (W₁ W₂ W₃ : Mat) (b₁ b₂ b₃ : Fin 128 → EReal) :
    (⟨2, ![n, 128]⟩ : Shape).Idx → EReal :=
  fun i => entry (fun k => agg (ix2 (i 0) k)) (xw i) W₁ W₂ W₃ b₁ b₂ b₃ (i 1)

theorem update_apply {n : Nat} (agg xw : (⟨2, ![n, 128]⟩ : Shape).Idx → EReal) (W₁ W₂ W₃ : Mat) (b₁ b₂ b₃ : Fin 128 → EReal)
    (r : Fin n) (c : Fin 128) :
    update agg xw W₁ W₂ W₃ b₁ b₂ b₃ (ix2 r c) = entry (fun k => agg (ix2 r k)) (xw (ix2 r c)) W₁ W₂ W₃ b₁ b₂ b₃ c := rfl

/-- An entry of the update of a block of rows is the entry of the update of the whole arrays at the row the block's
    row sits at: it reads that row of the aggregated messages and that entry of the features, nothing else. -/
theorem update_block {n N : Nat} (agg xw : (⟨2, ![N, 128]⟩ : Shape).Idx → EReal) (bagg bxw : (⟨2, ![n, 128]⟩ : Shape).Idx → EReal)
    (W₁ W₂ W₃ : Mat) (b₁ b₂ b₃ : Fin 128 → EReal) (j : (⟨2, ![n, 128]⟩ : Shape).Idx) (i : (⟨2, ![N, 128]⟩ : Shape).Idx)
    (hagg : ∀ k : Fin 128, bagg (ix2 (j 0) k) = agg (ix2 (i 0) k)) (hxw : bxw j = xw i) (hc : j 1 = i 1) :
    update bagg bxw W₁ W₂ W₃ b₁ b₂ b₃ j = update agg xw W₁ W₂ W₃ b₁ b₂ b₃ i := by
  show entry _ _ W₁ W₂ W₃ b₁ b₂ b₃ (j 1) = entry _ _ W₁ W₂ W₃ b₁ b₂ b₃ (i 1)
  rw [hxw, hc, funext hagg]

end Cert.Mlp

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.KernelBody.lean ====
/-
  What one grid point of the update kernel computes, entry by entry, on the extended reals.

  The body loads a block of 2000 rows of aggregated messages and of projected features, the three 128 × 128 weight
  matrices and the three biases (each one row, [1, 128]), and stores
  `max (xw + tanh (relu (relu (agg·W₁ + b₁)·W₂ + b₂)·W₃ + b₃)) 0`.  On the extended reals the changes of float
  format are the identity, a matrix product into the zero accumulator is, at entry (p, q), the sum over the
  contracted axis of `lhs[p,k] · rhs[k,q]`, and a [1, 128] row broadcast down the rows reads its entry at the column.
  So entry (p, q) of the stored block is `Mlp.entry` of row `p` of the aggregated block: the block is `Mlp.update`
  of the loaded blocks.
-/
import proofs.«177621_j12335146074640_1_alg».proof.Proof.Gen.KernelIdeal.Skeleton
import proofs.«177621_j12335146074640_1_alg».proof.Proof.MlpSpec
import proofs.«177621_j12335146074640_1_alg».proof.Proof.LibSplitContraction
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The matrix product's index maps: left operand at (row, k), right operand at (k, column) -/

theorem lhs0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem lhs1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

theorem rhs0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

theorem rhs1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-! ## One dense layer of the body at an entry -/

/-- A bias row [1, 128] broadcast down 2000 rows reads, at (p, q), its entry (0, q). -/
theorem bias_at (b : Vec Ideal S1x128 .f32) (p : Fin 2000) (q : Fin 128) :
    broadcastTo S2000x128 (shapeCast S1x128 b shapeCasts_S1x128_S1x128) broadcasts_S1x128_S2000x128 (ix2 p q)
      = b (ix2 (0 : Fin 1) q) := by
  rw [shapeCast_self]
  exact broadcastTo_apply b broadcasts_S1x128_S2000x128 (ix2 p q) (ix2 (0 : Fin 1) q) (fun a => by
    match a with
    | ⟨0, _⟩ => rfl
    | ⟨1, _⟩ => rfl)

/-- The product of the rows `x` with `W` into the zero accumulator, plus the bias row, at entry (p, q). -/
theorem layer_at (x : FVec Ideal S2000x128 .f32) (W : Vec Ideal S128x128 .f32) (b : Vec Ideal S1x128 .f32)
    (p : Fin 2000) (q : Fin 128) :
    addf (matmul dot_S2000x128_S128x128_S2000x128_1_0_0_1_n_n none (truncf .bf16 x bitsLt_bf16_f32)
        (truncf .bf16 (shapeCast S128x128 W shapeCasts_S128x128_S128x128) bitsLt_bf16_f32)
        (constant S2000x128 .f32 0x00000000#32))
      (broadcastTo S2000x128 (shapeCast S1x128 b shapeCasts_S1x128_S1x128) broadcasts_S1x128_S2000x128) (ix2 p q)
    = Mlp.dense (fun k => x (ix2 p k)) W (fun j => b (ix2 (0 : Fin 1) j)) q := by
  show _ + _ = _ + _
  refine congrArg₂ (· + ·) ?_ (bias_at b p q)
  refine (Cert.Lib.SplitContraction.matmul_zero_at dot_S2000x128_S128x128_S2000x128_1_0_0_1_n_n rfl rfl
    lhs0 lhs1 rhs0 rhs1 none _ _ p q).trans ?_
  refine Finset.sum_congr rfl fun k _ => ?_
  rw [shapeCast_self]
  rfl

/-! ## The stored block -/

/-- Entry (p, q) of what the body stores. -/
theorem payload_at (x0 x1 : Vec Ideal S2000x128 .f32) (x2 x4 x6 : Vec Ideal S128x128 .f32) (x3 x5 x7 : Vec Ideal S1x128 .f32)
    (p : Fin 2000) (q : Fin 128) :
    k0_pay1 (F := Ideal) (k0_pay2 x0 x2 x3 x4 x5 x6 x7 x1) (Scalar.ofBits .f32 0x00000000#32) (ix2 p q)
      = Mlp.entry (fun k => x0 (ix2 p k)) (x1 (ix2 p q)) x2 x4 x6
          (fun j => x3 (ix2 (0 : Fin 1) j)) (fun j => x5 (ix2 (0 : Fin 1) j)) (fun j => x7 (ix2 (0 : Fin 1) j)) q := by
  unfold k0_pay1 k0_pay2 Mlp.entry
  dsimp only
  show max (_ + Ideal.tanh _) _ = max (_ + Ideal.tanh _) _
  refine congrArg₂ max (congrArg₂ (· + ·) ?_ (congrArg Ideal.tanh ?_)) rfl
  · rw [shapeCast_self]
  · refine (layer_at _ x6 x7 p q).trans ?_
    refine congrArg (fun a => Mlp.dense a x6 _ q) (funext fun k => ?_)
    show max _ _ = max _ _
    refine congrArg₂ max ?_ rfl
    refine (layer_at _ x4 x5 p k).trans ?_
    refine congrArg (fun a => Mlp.dense a x4 _ k) (funext fun j => ?_)
    show max _ _ = max _ _
    refine congrArg₂ max ?_ rfl
    refine (layer_at _ x2 x3 p j).trans ?_
    refine congrArg (fun a => Mlp.dense a x2 _ j) (funext fun i => ?_)
    rw [shapeCast_self]

/-- The stored block is the update of the loaded blocks. -/
theorem payload_eq (x0 x1 : Vec Ideal S2000x128 .f32) (x2 x4 x6 : Vec Ideal S128x128 .f32) (x3 x5 x7 : Vec Ideal S1x128 .f32) :
    k0_pay1 (F := Ideal) (k0_pay2 x0 x2 x3 x4 x5 x6 x7 x1) (Scalar.ofBits .f32 0x00000000#32)
      = Mlp.update x0 x1 x2 x4 x6
          (fun j => x3 (ix2 (0 : Fin 1) j)) (fun j => x5 (ix2 (0 : Fin 1) j)) (fun j => x7 (ix2 (0 : Fin 1) j)) := by
  funext i
  obtain ⟨p, q, rfl⟩ : ∃ (p : Fin 2000) (q : Fin 128), i = ix2 p q := ⟨i 0, i 1, eq_ix2 i⟩
  exact payload_at x0 x1 x2 x4 x6 x3 x5 x7 p q

/-- Pallas call 1 runs a copy of the same body: its stored block is the same update. -/
theorem payload_eq1 (x0 x1 : Vec Ideal S2000x128 .f32) (x2 x4 x6 : Vec Ideal S128x128 .f32) (x3 x5 x7 : Vec Ideal S1x128 .f32) :
    k1_pay1 (F := Ideal) (k1_pay2 x0 x2 x3 x4 x5 x6 x7 x1) (Scalar.ofBits .f32 0x00000000#32)
      = Mlp.update x0 x1 x2 x4 x6
          (fun j => x3 (ix2 (0 : Fin 1) j)) (fun j => x5 (ix2 (0 : Fin 1) j)) (fun j => x7 (ix2 (0 : Fin 1) j)) :=
  payload_eq x0 x1 x2 x4 x6 x3 x5 x7

/-- Pallas call 2 runs a copy of the same body: its stored block is the same update. -/
theorem payload_eq2 (x0 x1 : Vec Ideal S2000x128 .f32) (x2 x4 x6 : Vec Ideal S128x128 .f32) (x3 x5 x7 : Vec Ideal S1x128 .f32) :
    k2_pay1 (F := Ideal) (k2_pay2 x0 x2 x3 x4 x5 x6 x7 x1) (Scalar.ofBits .f32 0x00000000#32)
      = Mlp.update x0 x1 x2 x4 x6
          (fun j => x3 (ix2 (0 : Fin 1) j)) (fun j => x5 (ix2 (0 : Fin 1) j)) (fun j => x7 (ix2 (0 : Fin 1) j)) :=
  payload_eq x0 x1 x2 x4 x6 x3 x5 x7

/-- Pallas call 3 runs a copy of the same body: its stored block is the same update. -/
theorem payload_eq3 (x0 x1 : Vec Ideal S2000x128 .f32) (x2 x4 x6 : Vec Ideal S128x128 .f32) (x3 x5 x7 : Vec Ideal S1x128 .f32) :
    k3_pay1 (F := Ideal) (k3_pay2 x0 x2 x3 x4 x5 x6 x7 x1) (Scalar.ofBits .f32 0x00000000#32)
      = Mlp.update x0 x1 x2 x4 x6
          (fun j => x3 (ix2 (0 : Fin 1) j)) (fun j => x5 (ix2 (0 : Fin 1) j)) (fun j => x7 (ix2 (0 : Fin 1) j)) :=
  payload_eq x0 x1 x2 x4 x6 x3 x5 x7

end Cert.KernelIdeal.Body

end
-- ==== Proof.Region0.lean ====
/-
  Pallas call 0 of the program: the array it leaves, as one function of the arrays it finds.

  The call's grid has 25 points; point `t` takes rows `2000·t … 2000·t + 1999` of the aggregated messages and of the
  projected features, the whole of each weight matrix and bias row, and writes back rows `2000·t … 2000·t + 1999` of the
  result.  An entry of the node update depends only on its own row of the aggregated messages, so what point `t`
  writes back is rows `2000·t …` of the update of the WHOLE arrays; the 25 blocks tile the 50000 rows, so after the
  call the result array is the update of the whole arrays.
-/
import proofs.«177621_j12335146074640_1_alg».proof.Proof.Gen.KernelIdeal.Frame
import proofs.«177621_j12335146074640_1_alg».proof.Proof.KernelBody
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- What the call's result array ends holding: the update of the arrays the call finds. -/
abbrev result (c : Dev nD) : S50000x128.Idx → EReal :=
  Mlp.update (V c main_v24) (V c main_v8) (V c main_v9) (V c main_v10) (V c main_v11)
    (fun j => V c main_v12 (ix2 (0 : Fin 1) j)) (fun j => V c main_v13 (ix2 (0 : Fin 1) j)) (fun j => V c main_v14 (ix2 (0 : Fin 1) j))

/-- The block index maps over the grid: the two row-blocked inputs move with the output's row block, every other
    block index is zero. -/
theorem idx_facts : ∀ t : Fin cfg0.N,
    win0_0.index t (0 : Fin 2) = win0_8.index t (0 : Fin 2) ∧ win0_0.index t (1 : Fin 2) = 0
    ∧ win0_1.index t (0 : Fin 2) = win0_8.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) ≤ 24 ∧ win0_8.index t (1 : Fin 2) = 0 :=
  (by decide +kernel : ∀ t : Fin grid0.N, _)

/-- Every row block is some point's. -/
theorem idx_onto : ∀ q0 : Fin 25, ∃ t : Fin cfg0.N, win0_8.index t = ![q0.val, 0] :=
  (by decide +kernel : ∀ q0 : Fin 25, ∃ t : Fin grid0.N, win0_8.index t = ![q0.val, 0])

set_option maxHeartbeats 1000000 in
/-- What point `t` writes back is block `t` of the update of the whole arrays. -/
theorem flushed_eq (c : Dev nD) (t : Fin cfg0.N) :
    (dat0 (F := Ideal) V c).flushed 8 t = ((cfg0.win 8).blk t).view.read (Elt Ideal) (result V c) := by
  show (cfg0.win 8).cut (grid0.coords t) ((dat0 (F := Ideal) V c).after 8 t) = _
  rw [after0_8]
  unfold out0_8
  rw [View.canon_unit_zero hz]
  simp only [View.ld_unit_zero (S := S2000x128) hz, View.ld_unit_zero (S := S128x128) hz, View.ld_unit_zero (S := S1x128) hz]
  rw [Body.payload_eq]
  obtain ⟨e00, e01, e10, e11, e20, e21, e30, e31, e40, e41, e50, e51, e60, e61, e70, e71, e8b, e81⟩ := idx_facts t
  have h2 : iblk0 V c 2 t = V c main_v9 := by
    funext x
    show V c main_v9 (((cfg0.win 2).blk t).view.emb x) = V c main_v9 x
    refine congrArg (V c main_v9) (funext fun a => Fin.ext ?_)
    match a with
    | ⟨0, _⟩ => show win0_2.index t (0 : Fin 2) * 128 + 1 * (x 0).val = (x 0).val; omega
    | ⟨1, _⟩ => show win0_2.index t (1 : Fin 2) * 128 + 1 * (x 1).val = (x 1).val; omega
  have h4 : iblk0 V c 4 t = V c main_v10 := by
    funext x
    show V c main_v10 (((cfg0.win 4).blk t).view.emb x) = V c main_v10 x
    refine congrArg (V c main_v10) (funext fun a => Fin.ext ?_)
    match a with
    | ⟨0, _⟩ => show win0_4.index t (0 : Fin 2) * 128 + 1 * (x 0).val = (x 0).val; omega
    | ⟨1, _⟩ => show win0_4.index t (1 : Fin 2) * 128 + 1 * (x 1).val = (x 1).val; omega
  have h6 : iblk0 V c 6 t = V c main_v11 := by
    funext x
    show V c main_v11 (((cfg0.win 6).blk t).view.emb x) = V c main_v11 x
    refine congrArg (V c main_v11) (funext fun a => Fin.ext ?_)
    match a with
    | ⟨0, _⟩ => show win0_6.index t (0 : Fin 2) * 128 + 1 * (x 0).val = (x 0).val; omega
    | ⟨1, _⟩ => show win0_6.index t (1 : Fin 2) * 128 + 1 * (x 1).val = (x 1).val; omega
  have h3 : iblk0 V c 3 t = V c main_v12 := by
    funext x
    show V c main_v12 (((cfg0.win 3).blk t).view.emb x) = V c main_v12 x
    refine congrArg (V c main_v12) (funext fun a => Fin.ext ?_)
    match a with
    | ⟨0, _⟩ => show win0_3.index t (0 : Fin 2) * 1 + 1 * (x 0).val = (x 0).val; omega
    | ⟨1, _⟩ => show win0_3.index t (1 : Fin 2) * 128 + 1 * (x 1).val = (x 1).val; omega
  have h5 : iblk0 V c 5 t = V c main_v13 := by
    funext x
    show V c main_v13 (((cfg0.win 5).blk t).view.emb x) = V c main_v13 x
    refine congrArg (V c main_v13) (funext fun a => Fin.ext ?_)
    match a with
    | ⟨0, _⟩ => show win0_5.index t (0 : Fin 2) * 1 + 1 * (x 0).val = (x 0).val; omega
    | ⟨1, _⟩ => show win0_5.index t (1 : Fin 2) * 128 + 1 * (x 1).val = (x 1).val; omega
  have h7 : iblk0 V c 7 t = V c main_v14 := by
    funext x
    show V c main_v14 (((cfg0.win 7).blk t).view.emb x) = V c main_v14 x
    refine congrArg (V c main_v14) (funext fun a => Fin.ext ?_)
    match a with
    | ⟨0, _⟩ => show win0_7.index t (0 : Fin 2) * 1 + 1 * (x 0).val = (x 0).val; omega
    | ⟨1, _⟩ => show win0_7.index t (1 : Fin 2) * 128 + 1 * (x 1).val = (x 1).val; omega
  rw [h2, h4, h6, h3, h5, h7]
  funext y
  refine Mlp.update_block (V c main_v24) (V c main_v8) (iblk0 V c 0 t) (iblk0 V c 1 t) _ _ _ _ _ _
    ((win0 8).xinj (grid0.coords t) y) (((cfg0.win 8).blk t).view.emb y) (fun k => ?_) ?_ ?_
  · show V c main_v24 (((cfg0.win 0).blk t).view.emb (ix2 (((win0 8).xinj (grid0.coords t) y) 0) k)) = _
    refine congrArg (V c main_v24) (funext fun a => Fin.ext ?_)
    match a with
    | ⟨0, _⟩ => show win0_0.index t (0 : Fin 2) * 2000 + 1 * (y 0).val = win0_8.index t (0 : Fin 2) * 2000 + 1 * (y 0).val; omega
    | ⟨1, _⟩ => show win0_0.index t (1 : Fin 2) * 128 + 1 * k.val = k.val; omega
  · show V c main_v8 (((cfg0.win 1).blk t).view.emb ((win0 8).xinj (grid0.coords t) y)) = _
    refine congrArg (V c main_v8) (funext fun a => Fin.ext ?_)
    match a with
    | ⟨0, _⟩ => show win0_1.index t (0 : Fin 2) * 2000 + 1 * (y 0).val = win0_8.index t (0 : Fin 2) * 2000 + 1 * (y 0).val; omega
    | ⟨1, _⟩ => show win0_1.index t (1 : Fin 2) * 128 + 1 * (y 1).val = win0_8.index t (1 : Fin 2) * 128 + 1 * (y 1).val; omega
  · apply Fin.ext
    show (y 1).val = win0_8.index t (1 : Fin 2) * 128 + 1 * (y 1).val; omega

/-- An index of the result array is in point `t`'s block iff each coordinate is in the block's range on its axis. -/
theorem mem_blk (t : Fin cfg0.N) (i : S50000x128.Idx) :
    i ∈ ((cfg0.win 8).blk t).view.set ↔ ∀ a : Fin 2, win0_8.index t a * S2000x128.size a ≤ (i a).val
      ∧ (i a).val < win0_8.index t a * S2000x128.size a + S2000x128.size a := by
  show i ∈ ((View.whole main_v25).slice (win0_8.rect t)).set ↔ _
  rw [View.set_slice_whole, Rect.mem_set_unit]
  exact Iff.rfl

/-- Row `r` is written back by the point whose row block is `r / 2000`. -/
theorem covered (i : S50000x128.Idx) :
    ∃ t : Fin cfg0.N, (cfg0.win 8).flush t = true ∧ i ∈ ((cfg0.win 8).blk t).view.set := by
  have hi0 : (i 0).val < 50000 := (i 0).isLt
  have hi1 : (i 1).val < 128 := (i 1).isLt
  obtain ⟨t, ht⟩ := idx_onto ⟨(i 0).val / 2000, by omega⟩
  have q0 : win0_8.index t (0 : Fin 2) = (i 0).val / 2000 := congrFun ht 0
  have q1 : win0_8.index t (1 : Fin 2) = 0 := congrFun ht 1
  refine ⟨t, flush0_8 t, ?_⟩
  rw [mem_blk]
  intro a
  match a with
  | ⟨0, _⟩ => show win0_8.index t (0 : Fin 2) * 2000 ≤ (i 0).val ∧ (i 0).val < win0_8.index t (0 : Fin 2) * 2000 + 2000; omega
  | ⟨1, _⟩ => show win0_8.index t (1 : Fin 2) * 128 ≤ (i 1).val ∧ (i 1).val < win0_8.index t (1 : Fin 2) * 128 + 128; omega

/-- After the call the result array is the update of the arrays the call found. -/
theorem final (c : Dev nD) : (dat0 (F := Ideal) V c).arrAt 8 cfg0.N = result V c :=
  (dat0 (F := Ideal) V c).arrAt_eq_of_cover 8 (result V c) (fun t _ => flushed_eq V c t) covered

end Cert.KernelIdeal.Region0

end
-- ==== Proof.Region1.lean ====
/-
  Pallas call 1 of the program: the array it leaves, as one function of the arrays it finds.

  The call's grid has 25 points; point `t` takes rows `2000·t … 2000·t + 1999` of the aggregated messages and of the
  projected features, the whole of each weight matrix and bias row, and writes back rows `2000·t … 2000·t + 1999` of the
  result.  An entry of the node update depends only on its own row of the aggregated messages, so what point `t`
  writes back is rows `2000·t …` of the update of the WHOLE arrays; the 25 blocks tile the 50000 rows, so after the
  call the result array is the update of the whole arrays.
-/
import proofs.«177621_j12335146074640_1_alg».proof.Proof.Gen.KernelIdeal.Frame
import proofs.«177621_j12335146074640_1_alg».proof.Proof.KernelBody
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- What the call's result array ends holding: the update of the arrays the call finds. -/
abbrev result (c : Dev nD) : S50000x128.Idx → EReal :=
  Mlp.update (V c main_v35) (V c main_v8) (V c main_v9) (V c main_v10) (V c main_v11)
    (fun j => V c main_v12 (ix2 (0 : Fin 1) j)) (fun j => V c main_v13 (ix2 (0 : Fin 1) j)) (fun j => V c main_v14 (ix2 (0 : Fin 1) j))

/-- The block index maps over the grid: the two row-blocked inputs move with the output's row block, every other
    block index is zero. -/
theorem idx_facts : ∀ t : Fin cfg1.N,
    win1_0.index t (0 : Fin 2) = win1_8.index t (0 : Fin 2) ∧ win1_0.index t (1 : Fin 2) = 0
    ∧ win1_1.index t (0 : Fin 2) = win1_8.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) ≤ 24 ∧ win1_8.index t (1 : Fin 2) = 0 :=
  (by decide +kernel : ∀ t : Fin grid1.N, _)

/-- Every row block is some point's. -/
theorem idx_onto : ∀ q0 : Fin 25, ∃ t : Fin cfg1.N, win1_8.index t = ![q0.val, 0] :=
  (by decide +kernel : ∀ q0 : Fin 25, ∃ t : Fin grid1.N, win1_8.index t = ![q0.val, 0])

set_option maxHeartbeats 1000000 in
/-- What point `t` writes back is block `t` of the update of the whole arrays. -/
theorem flushed_eq (c : Dev nD) (t : Fin cfg1.N) :
    (dat1 (F := Ideal) V c).flushed 8 t = ((cfg1.win 8).blk t).view.read (Elt Ideal) (result V c) := by
  show (cfg1.win 8).cut (grid1.coords t) ((dat1 (F := Ideal) V c).after 8 t) = _
  rw [after1_8]
  unfold out1_8
  rw [View.canon_unit_zero hz]
  simp only [View.ld_unit_zero (S := S2000x128) hz, View.ld_unit_zero (S := S128x128) hz, View.ld_unit_zero (S := S1x128) hz]
  rw [Body.payload_eq1]
  obtain ⟨e00, e01, e10, e11, e20, e21, e30, e31, e40, e41, e50, e51, e60, e61, e70, e71, e8b, e81⟩ := idx_facts t
  have h2 : iblk1 V c 2 t = V c main_v9 := by
    funext x
    show V c main_v9 (((cfg1.win 2).blk t).view.emb x) = V c main_v9 x
    refine congrArg (V c main_v9) (funext fun a => Fin.ext ?_)
    match a with
    | ⟨0, _⟩ => show win1_2.index t (0 : Fin 2) * 128 + 1 * (x 0).val = (x 0).val; omega
    | ⟨1, _⟩ => show win1_2.index t (1 : Fin 2) * 128 + 1 * (x 1).val = (x 1).val; omega
  have h4 : iblk1 V c 4 t = V c main_v10 := by
    funext x
    show V c main_v10 (((cfg1.win 4).blk t).view.emb x) = V c main_v10 x
    refine congrArg (V c main_v10) (funext fun a => Fin.ext ?_)
    match a with
    | ⟨0, _⟩ => show win1_4.index t (0 : Fin 2) * 128 + 1 * (x 0).val = (x 0).val; omega
    | ⟨1, _⟩ => show win1_4.index t (1 : Fin 2) * 128 + 1 * (x 1).val = (x 1).val; omega
  have h6 : iblk1 V c 6 t = V c main_v11 := by
    funext x
    show V c main_v11 (((cfg1.win 6).blk t).view.emb x) = V c main_v11 x
    refine congrArg (V c main_v11) (funext fun a => Fin.ext ?_)
    match a with
    | ⟨0, _⟩ => show win1_6.index t (0 : Fin 2) * 128 + 1 * (x 0).val = (x 0).val; omega
    | ⟨1, _⟩ => show win1_6.index t (1 : Fin 2) * 128 + 1 * (x 1).val = (x 1).val; omega
  have h3 : iblk1 V c 3 t = V c main_v12 := by
    funext x
    show V c main_v12 (((cfg1.win 3).blk t).view.emb x) = V c main_v12 x
    refine congrArg (V c main_v12) (funext fun a => Fin.ext ?_)
    match a with
    | ⟨0, _⟩ => show win1_3.index t (0 : Fin 2) * 1 + 1 * (x 0).val = (x 0).val; omega
    | ⟨1, _⟩ => show win1_3.index t (1 : Fin 2) * 128 + 1 * (x 1).val = (x 1).val; omega
  have h5 : iblk1 V c 5 t = V c main_v13 := by
    funext x
    show V c main_v13 (((cfg1.win 5).blk t).view.emb x) = V c main_v13 x
    refine congrArg (V c main_v13) (funext fun a => Fin.ext ?_)
    match a with
    | ⟨0, _⟩ => show win1_5.index t (0 : Fin 2) * 1 + 1 * (x 0).val = (x 0).val; omega
    | ⟨1, _⟩ => show win1_5.index t (1 : Fin 2) * 128 + 1 * (x 1).val = (x 1).val; omega
  have h7 : iblk1 V c 7 t = V c main_v14 := by
    funext x
    show V c main_v14 (((cfg1.win 7).blk t).view.emb x) = V c main_v14 x
    refine congrArg (V c main_v14) (funext fun a => Fin.ext ?_)
    match a with
    | ⟨0, _⟩ => show win1_7.index t (0 : Fin 2) * 1 + 1 * (x 0).val = (x 0).val; omega
    | ⟨1, _⟩ => show win1_7.index t (1 : Fin 2) * 128 + 1 * (x 1).val = (x 1).val; omega
  rw [h2, h4, h6, h3, h5, h7]
  funext y
  refine Mlp.update_block (V c main_v35) (V c main_v8) (iblk1 V c 0 t) (iblk1 V c 1 t) _ _ _ _ _ _
    ((win1 8).xinj (grid1.coords t) y) (((cfg1.win 8).blk t).view.emb y) (fun k => ?_) ?_ ?_
  · show V c main_v35 (((cfg1.win 0).blk t).view.emb (ix2 (((win1 8).xinj (grid1.coords t) y) 0) k)) = _
    refine congrArg (V c main_v35) (funext fun a => Fin.ext ?_)
    match a with
    | ⟨0, _⟩ => show win1_0.index t (0 : Fin 2) * 2000 + 1 * (y 0).val = win1_8.index t (0 : Fin 2) * 2000 + 1 * (y 0).val; omega
    | ⟨1, _⟩ => show win1_0.index t (1 : Fin 2) * 128 + 1 * k.val = k.val; omega
  · show V c main_v8 (((cfg1.win 1).blk t).view.emb ((win1 8).xinj (grid1.coords t) y)) = _
    refine congrArg (V c main_v8) (funext fun a => Fin.ext ?_)
    match a with
    | ⟨0, _⟩ => show win1_1.index t (0 : Fin 2) * 2000 + 1 * (y 0).val = win1_8.index t (0 : Fin 2) * 2000 + 1 * (y 0).val; omega
    | ⟨1, _⟩ => show win1_1.index t (1 : Fin 2) * 128 + 1 * (y 1).val = win1_8.index t (1 : Fin 2) * 128 + 1 * (y 1).val; omega
  · apply Fin.ext
    show (y 1).val = win1_8.index t (1 : Fin 2) * 128 + 1 * (y 1).val; omega

/-- An index of the result array is in point `t`'s block iff each coordinate is in the block's range on its axis. -/
theorem mem_blk (t : Fin cfg1.N) (i : S50000x128.Idx) :
    i ∈ ((cfg1.win 8).blk t).view.set ↔ ∀ a : Fin 2, win1_8.index t a * S2000x128.size a ≤ (i a).val
      ∧ (i a).val < win1_8.index t a * S2000x128.size a + S2000x128.size a := by
  show i ∈ ((View.whole main_v36).slice (win1_8.rect t)).set ↔ _
  rw [View.set_slice_whole, Rect.mem_set_unit]
  exact Iff.rfl

/-- Row `r` is written back by the point whose row block is `r / 2000`. -/
theorem covered (i : S50000x128.Idx) :
    ∃ t : Fin cfg1.N, (cfg1.win 8).flush t = true ∧ i ∈ ((cfg1.win 8).blk t).view.set := by
  have hi0 : (i 0).val < 50000 := (i 0).isLt
  have hi1 : (i 1).val < 128 := (i 1).isLt
  obtain ⟨t, ht⟩ := idx_onto ⟨(i 0).val / 2000, by omega⟩
  have q0 : win1_8.index t (0 : Fin 2) = (i 0).val / 2000 := congrFun ht 0
  have q1 : win1_8.index t (1 : Fin 2) = 0 := congrFun ht 1
  refine ⟨t, flush1_8 t, ?_⟩
  rw [mem_blk]
  intro a
  match a with
  | ⟨0, _⟩ => show win1_8.index t (0 : Fin 2) * 2000 ≤ (i 0).val ∧ (i 0).val < win1_8.index t (0 : Fin 2) * 2000 + 2000; omega
  | ⟨1, _⟩ => show win1_8.index t (1 : Fin 2) * 128 ≤ (i 1).val ∧ (i 1).val < win1_8.index t (1 : Fin 2) * 128 + 128; omega

/-- After the call the result array is the update of the arrays the call found. -/
theorem final (c : Dev nD) : (dat1 (F := Ideal) V c).arrAt 8 cfg1.N = result V c :=
  (dat1 (F := Ideal) V c).arrAt_eq_of_cover 8 (result V c) (fun t _ => flushed_eq V c t) covered

end Cert.KernelIdeal.Region1

end
-- ==== Proof.Region2.lean ====
/-
  Pallas call 2 of the program: the array it leaves, as one function of the arrays it finds.

  The call's grid has 25 points; point `t` takes rows `2000·t … 2000·t + 1999` of the aggregated messages and of the
  projected features, the whole of each weight matrix and bias row, and writes back rows `2000·t … 2000·t + 1999` of the
  result.  An entry of the node update depends only on its own row of the aggregated messages, so what point `t`
  writes back is rows `2000·t …` of the update of the WHOLE arrays; the 25 blocks tile the 50000 rows, so after the
  call the result array is the update of the whole arrays.
-/
import proofs.«177621_j12335146074640_1_alg».proof.Proof.Gen.KernelIdeal.Frame
import proofs.«177621_j12335146074640_1_alg».proof.Proof.KernelBody
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- What the call's result array ends holding: the update of the arrays the call finds. -/
abbrev result (c : Dev nD) : S50000x128.Idx → EReal :=
  Mlp.update (V c main_v46) (V c main_v8) (V c main_v9) (V c main_v10) (V c main_v11)
    (fun j => V c main_v12 (ix2 (0 : Fin 1) j)) (fun j => V c main_v13 (ix2 (0 : Fin 1) j)) (fun j => V c main_v14 (ix2 (0 : Fin 1) j))

/-- The block index maps over the grid: the two row-blocked inputs move with the output's row block, every other
    block index is zero. -/
theorem idx_facts : ∀ t : Fin cfg2.N,
    win2_0.index t (0 : Fin 2) = win2_8.index t (0 : Fin 2) ∧ win2_0.index t (1 : Fin 2) = 0
    ∧ win2_1.index t (0 : Fin 2) = win2_8.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) ≤ 24 ∧ win2_8.index t (1 : Fin 2) = 0 :=
  (by decide +kernel : ∀ t : Fin grid2.N, _)

/-- Every row block is some point's. -/
theorem idx_onto : ∀ q0 : Fin 25, ∃ t : Fin cfg2.N, win2_8.index t = ![q0.val, 0] :=
  (by decide +kernel : ∀ q0 : Fin 25, ∃ t : Fin grid2.N, win2_8.index t = ![q0.val, 0])

set_option maxHeartbeats 1000000 in
/-- What point `t` writes back is block `t` of the update of the whole arrays. -/
theorem flushed_eq (c : Dev nD) (t : Fin cfg2.N) :
    (dat2 (F := Ideal) V c).flushed 8 t = ((cfg2.win 8).blk t).view.read (Elt Ideal) (result V c) := by
  show (cfg2.win 8).cut (grid2.coords t) ((dat2 (F := Ideal) V c).after 8 t) = _
  rw [after2_8]
  unfold out2_8
  rw [View.canon_unit_zero hz]
  simp only [View.ld_unit_zero (S := S2000x128) hz, View.ld_unit_zero (S := S128x128) hz, View.ld_unit_zero (S := S1x128) hz]
  rw [Body.payload_eq2]
  obtain ⟨e00, e01, e10, e11, e20, e21, e30, e31, e40, e41, e50, e51, e60, e61, e70, e71, e8b, e81⟩ := idx_facts t
  have h2 : iblk2 V c 2 t = V c main_v9 := by
    funext x
    show V c main_v9 (((cfg2.win 2).blk t).view.emb x) = V c main_v9 x
    refine congrArg (V c main_v9) (funext fun a => Fin.ext ?_)
    match a with
    | ⟨0, _⟩ => show win2_2.index t (0 : Fin 2) * 128 + 1 * (x 0).val = (x 0).val; omega
    | ⟨1, _⟩ => show win2_2.index t (1 : Fin 2) * 128 + 1 * (x 1).val = (x 1).val; omega
  have h4 : iblk2 V c 4 t = V c main_v10 := by
    funext x
    show V c main_v10 (((cfg2.win 4).blk t).view.emb x) = V c main_v10 x
    refine congrArg (V c main_v10) (funext fun a => Fin.ext ?_)
    match a with
    | ⟨0, _⟩ => show win2_4.index t (0 : Fin 2) * 128 + 1 * (x 0).val = (x 0).val; omega
    | ⟨1, _⟩ => show win2_4.index t (1 : Fin 2) * 128 + 1 * (x 1).val = (x 1).val; omega
  have h6 : iblk2 V c 6 t = V c main_v11 := by
    funext x
    show V c main_v11 (((cfg2.win 6).blk t).view.emb x) = V c main_v11 x
    refine congrArg (V c main_v11) (funext fun a => Fin.ext ?_)
    match a with
    | ⟨0, _⟩ => show win2_6.index t (0 : Fin 2) * 128 + 1 * (x 0).val = (x 0).val; omega
    | ⟨1, _⟩ => show win2_6.index t (1 : Fin 2) * 128 + 1 * (x 1).val = (x 1).val; omega
  have h3 : iblk2 V c 3 t = V c main_v12 := by
    funext x
    show V c main_v12 (((cfg2.win 3).blk t).view.emb x) = V c main_v12 x
    refine congrArg (V c main_v12) (funext fun a => Fin.ext ?_)
    match a with
    | ⟨0, _⟩ => show win2_3.index t (0 : Fin 2) * 1 + 1 * (x 0).val = (x 0).val; omega
    | ⟨1, _⟩ => show win2_3.index t (1 : Fin 2) * 128 + 1 * (x 1).val = (x 1).val; omega
  have h5 : iblk2 V c 5 t = V c main_v13 := by
    funext x
    show V c main_v13 (((cfg2.win 5).blk t).view.emb x) = V c main_v13 x
    refine congrArg (V c main_v13) (funext fun a => Fin.ext ?_)
    match a with
    | ⟨0, _⟩ => show win2_5.index t (0 : Fin 2) * 1 + 1 * (x 0).val = (x 0).val; omega
    | ⟨1, _⟩ => show win2_5.index t (1 : Fin 2) * 128 + 1 * (x 1).val = (x 1).val; omega
  have h7 : iblk2 V c 7 t = V c main_v14 := by
    funext x
    show V c main_v14 (((cfg2.win 7).blk t).view.emb x) = V c main_v14 x
    refine congrArg (V c main_v14) (funext fun a => Fin.ext ?_)
    match a with
    | ⟨0, _⟩ => show win2_7.index t (0 : Fin 2) * 1 + 1 * (x 0).val = (x 0).val; omega
    | ⟨1, _⟩ => show win2_7.index t (1 : Fin 2) * 128 + 1 * (x 1).val = (x 1).val; omega
  rw [h2, h4, h6, h3, h5, h7]
  funext y
  refine Mlp.update_block (V c main_v46) (V c main_v8) (iblk2 V c 0 t) (iblk2 V c 1 t) _ _ _ _ _ _
    ((win2 8).xinj (grid2.coords t) y) (((cfg2.win 8).blk t).view.emb y) (fun k => ?_) ?_ ?_
  · show V c main_v46 (((cfg2.win 0).blk t).view.emb (ix2 (((win2 8).xinj (grid2.coords t) y) 0) k)) = _
    refine congrArg (V c main_v46) (funext fun a => Fin.ext ?_)
    match a with
    | ⟨0, _⟩ => show win2_0.index t (0 : Fin 2) * 2000 + 1 * (y 0).val = win2_8.index t (0 : Fin 2) * 2000 + 1 * (y 0).val; omega
    | ⟨1, _⟩ => show win2_0.index t (1 : Fin 2) * 128 + 1 * k.val = k.val; omega
  · show V c main_v8 (((cfg2.win 1).blk t).view.emb ((win2 8).xinj (grid2.coords t) y)) = _
    refine congrArg (V c main_v8) (funext fun a => Fin.ext ?_)
    match a with
    | ⟨0, _⟩ => show win2_1.index t (0 : Fin 2) * 2000 + 1 * (y 0).val = win2_8.index t (0 : Fin 2) * 2000 + 1 * (y 0).val; omega
    | ⟨1, _⟩ => show win2_1.index t (1 : Fin 2) * 128 + 1 * (y 1).val = win2_8.index t (1 : Fin 2) * 128 + 1 * (y 1).val; omega
  · apply Fin.ext
    show (y 1).val = win2_8.index t (1 : Fin 2) * 128 + 1 * (y 1).val; omega

/-- An index of the result array is in point `t`'s block iff each coordinate is in the block's range on its axis. -/
theorem mem_blk (t : Fin cfg2.N) (i : S50000x128.Idx) :
    i ∈ ((cfg2.win 8).blk t).view.set ↔ ∀ a : Fin 2, win2_8.index t a * S2000x128.size a ≤ (i a).val
      ∧ (i a).val < win2_8.index t a * S2000x128.size a + S2000x128.size a := by
  show i ∈ ((View.whole main_v47).slice (win2_8.rect t)).set ↔ _
  rw [View.set_slice_whole, Rect.mem_set_unit]
  exact Iff.rfl

/-- Row `r` is written back by the point whose row block is `r / 2000`. -/
theorem covered (i : S50000x128.Idx) :
    ∃ t : Fin cfg2.N, (cfg2.win 8).flush t = true ∧ i ∈ ((cfg2.win 8).blk t).view.set := by
  have hi0 : (i 0).val < 50000 := (i 0).isLt
  have hi1 : (i 1).val < 128 := (i 1).isLt
  obtain ⟨t, ht⟩ := idx_onto ⟨(i 0).val / 2000, by omega⟩
  have q0 : win2_8.index t (0 : Fin 2) = (i 0).val / 2000 := congrFun ht 0
  have q1 : win2_8.index t (1 : Fin 2) = 0 := congrFun ht 1
  refine ⟨t, flush2_8 t, ?_⟩
  rw [mem_blk]
  intro a
  match a with
  | ⟨0, _⟩ => show win2_8.index t (0 : Fin 2) * 2000 ≤ (i 0).val ∧ (i 0).val < win2_8.index t (0 : Fin 2) * 2000 + 2000; omega
  | ⟨1, _⟩ => show win2_8.index t (1 : Fin 2) * 128 ≤ (i 1).val ∧ (i 1).val < win2_8.index t (1 : Fin 2) * 128 + 128; omega

/-- After the call the result array is the update of the arrays the call found. -/
theorem final (c : Dev nD) : (dat2 (F := Ideal) V c).arrAt 8 cfg2.N = result V c :=
  (dat2 (F := Ideal) V c).arrAt_eq_of_cover 8 (result V c) (fun t _ => flushed_eq V c t) covered

end Cert.KernelIdeal.Region2

end
-- ==== Proof.Region3.lean ====
/-
  Pallas call 3 of the program: the array it leaves, as one function of the arrays it finds.

  The call's grid has 25 points; point `t` takes rows `2000·t … 2000·t + 1999` of the aggregated messages and of the
  projected features, the whole of each weight matrix and bias row, and writes back rows `2000·t … 2000·t + 1999` of the
  result.  An entry of the node update depends only on its own row of the aggregated messages, so what point `t`
  writes back is rows `2000·t …` of the update of the WHOLE arrays; the 25 blocks tile the 50000 rows, so after the
  call the result array is the update of the whole arrays.
-/
import proofs.«177621_j12335146074640_1_alg».proof.Proof.Gen.KernelIdeal.Frame
import proofs.«177621_j12335146074640_1_alg».proof.Proof.KernelBody
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- What the call's result array ends holding: the update of the arrays the call finds. -/
abbrev result (c : Dev nD) : S50000x128.Idx → EReal :=
  Mlp.update (V c main_v57) (V c main_v8) (V c main_v9) (V c main_v10) (V c main_v11)
    (fun j => V c main_v12 (ix2 (0 : Fin 1) j)) (fun j => V c main_v13 (ix2 (0 : Fin 1) j)) (fun j => V c main_v14 (ix2 (0 : Fin 1) j))

/-- The block index maps over the grid: the two row-blocked inputs move with the output's row block, every other
    block index is zero. -/
theorem idx_facts : ∀ t : Fin cfg3.N,
    win3_0.index t (0 : Fin 2) = win3_8.index t (0 : Fin 2) ∧ win3_0.index t (1 : Fin 2) = 0
    ∧ win3_1.index t (0 : Fin 2) = win3_8.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) ≤ 24 ∧ win3_8.index t (1 : Fin 2) = 0 :=
  (by decide +kernel : ∀ t : Fin grid3.N, _)

/-- Every row block is some point's. -/
theorem idx_onto : ∀ q0 : Fin 25, ∃ t : Fin cfg3.N, win3_8.index t = ![q0.val, 0] :=
  (by decide +kernel : ∀ q0 : Fin 25, ∃ t : Fin grid3.N, win3_8.index t = ![q0.val, 0])

set_option maxHeartbeats 1000000 in
/-- What point `t` writes back is block `t` of the update of the whole arrays. -/
theorem flushed_eq (c : Dev nD) (t : Fin cfg3.N) :
    (dat3 (F := Ideal) V c).flushed 8 t = ((cfg3.win 8).blk t).view.read (Elt Ideal) (result V c) := by
  show (cfg3.win 8).cut (grid3.coords t) ((dat3 (F := Ideal) V c).after 8 t) = _
  rw [after3_8]
  unfold out3_8
  rw [View.canon_unit_zero hz]
  simp only [View.ld_unit_zero (S := S2000x128) hz, View.ld_unit_zero (S := S128x128) hz, View.ld_unit_zero (S := S1x128) hz]
  rw [Body.payload_eq3]
  obtain ⟨e00, e01, e10, e11, e20, e21, e30, e31, e40, e41, e50, e51, e60, e61, e70, e71, e8b, e81⟩ := idx_facts t
  have h2 : iblk3 V c 2 t = V c main_v9 := by
    funext x
    show V c main_v9 (((cfg3.win 2).blk t).view.emb x) = V c main_v9 x
    refine congrArg (V c main_v9) (funext fun a => Fin.ext ?_)
    match a with
    | ⟨0, _⟩ => show win3_2.index t (0 : Fin 2) * 128 + 1 * (x 0).val = (x 0).val; omega
    | ⟨1, _⟩ => show win3_2.index t (1 : Fin 2) * 128 + 1 * (x 1).val = (x 1).val; omega
  have h4 : iblk3 V c 4 t = V c main_v10 := by
    funext x
    show V c main_v10 (((cfg3.win 4).blk t).view.emb x) = V c main_v10 x
    refine congrArg (V c main_v10) (funext fun a => Fin.ext ?_)
    match a with
    | ⟨0, _⟩ => show win3_4.index t (0 : Fin 2) * 128 + 1 * (x 0).val = (x 0).val; omega
    | ⟨1, _⟩ => show win3_4.index t (1 : Fin 2) * 128 + 1 * (x 1).val = (x 1).val; omega
  have h6 : iblk3 V c 6 t = V c main_v11 := by
    funext x
    show V c main_v11 (((cfg3.win 6).blk t).view.emb x) = V c main_v11 x
    refine congrArg (V c main_v11) (funext fun a => Fin.ext ?_)
    match a with
    | ⟨0, _⟩ => show win3_6.index t (0 : Fin 2) * 128 + 1 * (x 0).val = (x 0).val; omega
    | ⟨1, _⟩ => show win3_6.index t (1 : Fin 2) * 128 + 1 * (x 1).val = (x 1).val; omega
  have h3 : iblk3 V c 3 t = V c main_v12 := by
    funext x
    show V c main_v12 (((cfg3.win 3).blk t).view.emb x) = V c main_v12 x
    refine congrArg (V c main_v12) (funext fun a => Fin.ext ?_)
    match a with
    | ⟨0, _⟩ => show win3_3.index t (0 : Fin 2) * 1 + 1 * (x 0).val = (x 0).val; omega
    | ⟨1, _⟩ => show win3_3.index t (1 : Fin 2) * 128 + 1 * (x 1).val = (x 1).val; omega
  have h5 : iblk3 V c 5 t = V c main_v13 := by
    funext x
    show V c main_v13 (((cfg3.win 5).blk t).view.emb x) = V c main_v13 x
    refine congrArg (V c main_v13) (funext fun a => Fin.ext ?_)
    match a with
    | ⟨0, _⟩ => show win3_5.index t (0 : Fin 2) * 1 + 1 * (x 0).val = (x 0).val; omega
    | ⟨1, _⟩ => show win3_5.index t (1 : Fin 2) * 128 + 1 * (x 1).val = (x 1).val; omega
  have h7 : iblk3 V c 7 t = V c main_v14 := by
    funext x
    show V c main_v14 (((cfg3.win 7).blk t).view.emb x) = V c main_v14 x
    refine congrArg (V c main_v14) (funext fun a => Fin.ext ?_)
    match a with
    | ⟨0, _⟩ => show win3_7.index t (0 : Fin 2) * 1 + 1 * (x 0).val = (x 0).val; omega
    | ⟨1, _⟩ => show win3_7.index t (1 : Fin 2) * 128 + 1 * (x 1).val = (x 1).val; omega
  rw [h2, h4, h6, h3, h5, h7]
  funext y
  refine Mlp.update_block (V c main_v57) (V c main_v8) (iblk3 V c 0 t) (iblk3 V c 1 t) _ _ _ _ _ _
    ((win3 8).xinj (grid3.coords t) y) (((cfg3.win 8).blk t).view.emb y) (fun k => ?_) ?_ ?_
  · show V c main_v57 (((cfg3.win 0).blk t).view.emb (ix2 (((win3 8).xinj (grid3.coords t) y) 0) k)) = _
    refine congrArg (V c main_v57) (funext fun a => Fin.ext ?_)
    match a with
    | ⟨0, _⟩ => show win3_0.index t (0 : Fin 2) * 2000 + 1 * (y 0).val = win3_8.index t (0 : Fin 2) * 2000 + 1 * (y 0).val; omega
    | ⟨1, _⟩ => show win3_0.index t (1 : Fin 2) * 128 + 1 * k.val = k.val; omega
  · show V c main_v8 (((cfg3.win 1).blk t).view.emb ((win3 8).xinj (grid3.coords t) y)) = _
    refine congrArg (V c main_v8) (funext fun a => Fin.ext ?_)
    match a with
    | ⟨0, _⟩ => show win3_1.index t (0 : Fin 2) * 2000 + 1 * (y 0).val = win3_8.index t (0 : Fin 2) * 2000 + 1 * (y 0).val; omega
    | ⟨1, _⟩ => show win3_1.index t (1 : Fin 2) * 128 + 1 * (y 1).val = win3_8.index t (1 : Fin 2) * 128 + 1 * (y 1).val; omega
  · apply Fin.ext
    show (y 1).val = win3_8.index t (1 : Fin 2) * 128 + 1 * (y 1).val; omega

/-- An index of the result array is in point `t`'s block iff each coordinate is in the block's range on its axis. -/
theorem mem_blk (t : Fin cfg3.N) (i : S50000x128.Idx) :
    i ∈ ((cfg3.win 8).blk t).view.set ↔ ∀ a : Fin 2, win3_8.index t a * S2000x128.size a ≤ (i a).val
      ∧ (i a).val < win3_8.index t a * S2000x128.size a + S2000x128.size a := by
  show i ∈ ((View.whole main_v58).slice (win3_8.rect t)).set ↔ _
  rw [View.set_slice_whole, Rect.mem_set_unit]
  exact Iff.rfl

/-- Row `r` is written back by the point whose row block is `r / 2000`. -/
theorem covered (i : S50000x128.Idx) :
    ∃ t : Fin cfg3.N, (cfg3.win 8).flush t = true ∧ i ∈ ((cfg3.win 8).blk t).view.set := by
  have hi0 : (i 0).val < 50000 := (i 0).isLt
  have hi1 : (i 1).val < 128 := (i 1).isLt
  obtain ⟨t, ht⟩ := idx_onto ⟨(i 0).val / 2000, by omega⟩
  have q0 : win3_8.index t (0 : Fin 2) = (i 0).val / 2000 := congrFun ht 0
  have q1 : win3_8.index t (1 : Fin 2) = 0 := congrFun ht 1
  refine ⟨t, flush3_8 t, ?_⟩
  rw [mem_blk]
  intro a
  match a with
  | ⟨0, _⟩ => show win3_8.index t (0 : Fin 2) * 2000 ≤ (i 0).val ∧ (i 0).val < win3_8.index t (0 : Fin 2) * 2000 + 2000; omega
  | ⟨1, _⟩ => show win3_8.index t (1 : Fin 2) * 128 ≤ (i 1).val ∧ (i 1).val < win3_8.index t (1 : Fin 2) * 128 + 128; omega

/-- After the call the result array is the update of the arrays the call found. -/
theorem final (c : Dev nD) : (dat3 (F := Ideal) V c).arrAt 8 cfg3.N = result V c :=
  (dat3 (F := Ideal) V c).arrAt_eq_of_cover 8 (result V c) (fun t _ => flushed_eq V c t) covered

end Cert.KernelIdeal.Region3

end
-- ==== Proof.Rounds.lean ====
/-
  The reference program as four rounds of one function.

  The reference computes, once, the projected features `xw = x·W₁ᵀ + b` and the source and target node of every
  edge; then four times: gather the source rows of `u`, add them into their target rows (`aggOf`), pass the
  aggregate through the three dense layers, add `xw`, clamp (`stepOf`); and at the end sums the rows of `u` and
  applies the read-out layer (`tailOf`).  Written with these names its result is
  `tailOf (round (round (round (round u))))`: the program's composed term, unfolded, is literally that.
-/
import proofs.«177621_j12335146074640_1_alg».proof.Proof.Gen.ReferenceIdeal.Run
import Idealize.ShloMosaic.PureOps.Ideal.Laws

noncomputable section

namespace Cert.Rounds

open Cert.ReferenceIdeal Cert.ReferenceIdeal.Gen Cert.ReferenceIdeal.Value Idealize.ShloMosaic Idealize.ShloMosaic.TcCoe Idealize.SL.Sem

abbrev Nodes : Type := FVec Ideal S50000x128 .f32
abbrev Weights : Type := FVec Ideal S128x128 .f32
abbrev Bias : Type := FVec Ideal S128 .f32
abbrev Edges : Type := IVec S800000 32

/-- The source node of every edge: row 0 of the edge list. -/
def srcOf (e : IVec S2x800000 32) : Edges :=
  shapeCast _ (extractStridedSlice S1x800000 ![0, 0] e slices_S2x800000_S1x800000_0_0) shapeCasts_S1x800000_S800000

/-- The target node of every edge: row 1 of the edge list. -/
def dstOf (e : IVec S2x800000 32) : Edges :=
  shapeCast _ (extractStridedSlice S1x800000 ![1, 0] e slices_S2x800000_S1x800000_1_0) shapeCasts_S1x800000_S800000

/-- A weight matrix transposed. -/
def tr (W : Weights) : Weights := transpose S128x128 [1, 0] W transposes_S128x128_S128x128_1_0

/-- A bias vector as every row of a [50000, 128] array. -/
def biasRows (b : Bias) : Nodes :=
  broadcastInDim S50000x128 ![0, 1] bcast_S1x128_S50000x128_0_1 (broadcastInDim S1x128 ![1] bcast_S128_S1x128_1 b)

/-- The projected node features `x·W₁ᵀ + b`. -/
def xwOf (x : FVec Ideal S50000x64 .f32) (W : FVec Ideal S128x64 .f32) (b : Bias) : Nodes :=
  addf (Host.dotGeneral dot_S50000x64_S64x128_S50000x128_1_0_0_1_n_n none x (transpose S64x128 [1, 0] W transposes_S128x64_S64x128_1_0))
    (biasRows b)

/-- The aggregated messages: the source rows of `u` gathered edge by edge (a negative source index counted from
    the end) and added into their target rows, from zero. -/
def aggOf (u : Nodes) (src dst : Edges) : Nodes :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 u
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The clamp at zero of a whole array. -/
def reluOf (x : Nodes) : Nodes :=
  maximumf x (broadcastInDim S50000x128 ![] bcast_S_S50000x128 (constant (F := Ideal) S_ .f32 0x00000000#32))

/-- One dense layer of the reference: `x·Wᵀ + b`. -/
def denseOf (x : Nodes) (W : Weights) (b : Bias) : Nodes :=
  addf (Host.dotGeneral dot_S50000x128_S128x128_S50000x128_1_0_0_1_n_n none x (tr W)) (biasRows b)

/-- The reference's node update from the aggregated messages. -/
def stepOf (agg xw : Nodes) (W₁ : Weights) (b₁ : Bias) (W₂ : Weights) (b₂ : Bias) (W₃ : Weights) (b₃ : Bias) : Nodes :=
  reluOf (addf xw (Host.tanh (denseOf (reluOf (denseOf (reluOf (denseOf agg W₁ b₁)) W₂ b₂)) W₃ b₃)))

/-- The read-out: the rows summed, then one dense layer on the single row. -/
def tailOf (u : Nodes) (W : Weights) (b : Bias) : FVec Ideal S1x128 .f32 :=
  addf (Host.dotGeneral dot_S1x128_S128x128_S1x128_1_0_0_1_n_n none
      (broadcastInDim S1x128 ![1] bcast_S128_S1x128_1
        (Host.reduceAdd u (constant (F := Ideal) S_ .f32 0x00000000#32) reducesTo_S50000x128_S128_d0 h_S_)) (tr W))
    (broadcastInDim S1x128 ![1] bcast_S128_S1x128_1 b)

/-- One round of the reference from the node states `u`. -/
def roundOf (x : FVec Ideal S50000x64 .f32) (e : IVec S2x800000 32) (Wx : FVec Ideal S128x64 .f32) (bx : Bias)
    (W₁ : Weights) (b₁ : Bias) (W₂ : Weights) (b₂ : Bias) (W₃ : Weights) (b₃ : Bias) (u : Nodes) : Nodes :=
  stepOf (aggOf u (srcOf e) (dstOf e)) (xwOf x Wx bx) W₁ b₁ W₂ b₂ W₃ b₃

/-- The whole reference: four rounds and the read-out. -/
def programOf (x : FVec Ideal S50000x64 .f32) (u : Nodes) (e : IVec S2x800000 32) (Wx : FVec Ideal S128x64 .f32) (bx : Bias)
    (W₁ : Weights) (b₁ : Bias) (W₂ : Weights) (b₂ : Bias) (W₃ : Weights) (b₃ : Bias) (Wr : Weights) (br : Bias) :
    FVec Ideal S1x128 .f32 :=
  tailOf (roundOf x e Wx bx W₁ b₁ W₂ b₂ W₃ b₃ (roundOf x e Wx bx W₁ b₁ W₂ b₂ W₃ b₃
    (roundOf x e Wx bx W₁ b₁ W₂ b₂ W₃ b₃ (roundOf x e Wx bx W₁ b₁ W₂ b₂ W₃ b₃ u)))) Wr br

variable (m : (ℓ : Loc nD τ sig) → Buf (Elt Ideal) ℓ) (c : Dev nD)

set_option maxRecDepth 8192 in
/-- The reference's result is four rounds and the read-out of its arguments. -/
theorem result_eq : res_main_v134 (F := Ideal) m c
    = programOf (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9))
        (m ((c.tc : Thread nD τ).loc main_arg10)) (m ((c.tc : Thread nD τ).loc main_arg11))
        (m ((c.tc : Thread nD τ).loc main_arg12)) := by
  unfold res_main_v134
  rfl

end Cert.Rounds

end
-- ==== Proof.LibDotGeneralAt.lean ====
/-
  A general fact about a host contraction, for any sizes.

  * dotGeneral_at: a host dot_general of a plain matrix product (rows × contracted axis, contracted axis ×
    columns), read at entry (r, c) at the ideal instance, is the sum over the contracted axis of
    lhs[r,k] · rhs[k,c], whatever the precision and the schedule key. It is the host-side companion of the
    same reading of a kernel's matrix product into the zero accumulator: the two sums are then literally the
    same sum over Fin K.
-/
import Idealize.ShloMosaic.PureOps.Ideal.Laws
import Idealize.ShloMosaic.Lib.ValueIdx

noncomputable section

namespace Cert.Lib.DotGeneralAt

open Idealize.ShloMosaic Idealize.ShloMosaic.ValueIdx

/-- A host dot_general of a plain matrix product, read at entry (r, c): the sum over the contracted axis of
    the row's entries times the column's. The four hypotheses name the coordinates of the operands' indices at
    an output index and a contraction index (for a printed dimension record: two by unfolding the index maps,
    two by the library's lhsIdx_val_of_single / rhsIdx_val_of_single). -/
theorem dotGeneral_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision) (sched : HostSchedule)
    (lhs : FVec Ideal ⟨2, ![n, K]⟩ φ₁) (rhs : FVec Ideal ⟨2, ![K, d]⟩ φ₂) (r : Fin n) (c : Fin d) :
    FloatOps.dotGeneral D prec sched lhs rhs (ix2 r c) = ∑ k : Fin K, lhs (ix2 r k) * rhs (ix2 k c) := by
  rw [Ideal.dotGeneral_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.DotGeneralAt

end
-- ==== Proof.LibHostRowColumn.lean ====
/-
  Two host layouts read at an index, for any sizes and any element type.

  * row_repeated: a vector of b entries made one row [1, b] (broadcast_in_dim along axis 1) and then repeated down
    a rows (broadcast_in_dim of [1, b] into [a, b]) reads, at (e, c), the vector's entry c: a bias vector added to
    every row of a matrix.
  * column_repeated: a vector of a entries made a column [a, 1] (broadcast_in_dim along axis 0) and then repeated
    across b columns reads, at (e, c), the vector's entry e: a row maximum subtracted from, or a row sum divided
    into, every entry of its row.
-/
import Idealize.ShloMosaic.Lib.Pipeline.Value
import Idealize.ShloMosaic.Lib.ValueIdx

namespace Cert.Lib.HostRowColumn

open Idealize.ShloMosaic Idealize.ShloMosaic.ValueIdx

variable {α : Type}

/-- A vector made one row and repeated down the rows reads, at (e, c), its entry c. -/
theorem row_repeated {a b : ℕ} (β : (⟨1, ![b]⟩ : Shape).Idx → α)
    (h : (⟨1, ![b]⟩ : Shape).BroadcastsInDim ⟨2, ![1, b]⟩ (![1] : Fin 1 → Fin 2))
    (h' : (⟨2, ![1, b]⟩ : Shape).BroadcastsInDim ⟨2, ![a, b]⟩ (![0, 1] : Fin 2 → Fin 2)) (e : Fin a) (c : Fin b) :
    broadcastInDim ⟨2, ![a, b]⟩ ![0, 1] h' (broadcastInDim ⟨2, ![1, b]⟩ ![1] h β) (ix2 e c) = β (ix1 c) :=
  (broadcastInDim_apply _ h' _ (ix2 e c) (ix2 (0 : Fin 1) c) (fun ax => by
    match ax with
    | ⟨0, _⟩ => rfl
    | ⟨1, _⟩ =>
      show c.val = if b = 1 then 0 else c.val
      split
      · have := c.isLt; omega
      · rfl)).trans
  (broadcastInDim_apply _ h β (ix2 (0 : Fin 1) c) (ix1 c) (fun ax => by
    match ax with
    | ⟨0, _⟩ =>
      show c.val = if b = 1 then 0 else c.val
      split
      · have := c.isLt; omega
      · rfl))

/-- A vector made a column and repeated across the columns reads, at (e, c), its entry e. -/
theorem column_repeated {a b : ℕ} (v : (⟨1, ![a]⟩ : Shape).Idx → α)
    (h : (⟨1, ![a]⟩ : Shape).BroadcastsInDim ⟨2, ![a, 1]⟩ (![0] : Fin 1 → Fin 2))
    (h' : (⟨2, ![a, 1]⟩ : Shape).BroadcastsInDim ⟨2, ![a, b]⟩ (![0, 1] : Fin 2 → Fin 2)) (e : Fin a) (c : Fin b) :
    broadcastInDim ⟨2, ![a, b]⟩ ![0, 1] h' (broadcastInDim ⟨2, ![a, 1]⟩ ![0] h v) (ix2 e c) = v (ix1 e) :=
  (broadcastInDim_apply _ h' _ (ix2 e c) (ix2 e (0 : Fin 1)) (fun ax => by
    match ax with
    | ⟨0, _⟩ =>
      show e.val = if a = 1 then 0 else e.val
      split
      · have := e.isLt; omega
      · rfl
    | ⟨1, _⟩ => rfl)).trans
  (broadcastInDim_apply _ h v (ix2 e (0 : Fin 1)) (ix1 e) (fun ax => by
    match ax with
    | ⟨0, _⟩ =>
      show e.val = if a = 1 then 0 else e.val
      split
      · have := e.isLt; omega
      · rfl))

end Cert.Lib.HostRowColumn
-- ==== Proof.LibColumns.lean ====
/-
  Two layout readings used by every stage: a vector recast as a one-column matrix read at `(p, 0)`, and a scalar
  broadcast to any shape read at any index.
-/
import Idealize.ShloMosaic.Lib.ValueIdx
import Idealize.ShloMosaic.Lib.Pipeline.Value

noncomputable section

namespace Cert.Sage.Layout

open Idealize.ShloMosaic Idealize.ShloMosaic.ValueIdx

/-- An `[n]` array cast to `[n, 1]` reads, at `(p, 0)`, the operand at `p`. -/
theorem shapeCast_n_n1_apply {α : Type} {n : ℕ} (x : (⟨1, ![n]⟩ : Shape).Idx → α) (h : (⟨1, ![n]⟩ : Shape).ShapeCasts ⟨2, ![n, 1]⟩)
    (p : Fin n) : shapeCast ⟨2, ![n, 1]⟩ x h (ix2 p (0 : Fin 1)) = x (ix1 p) :=
  shapeCast_apply x h _ _ (by
    rw [Shape.rowMajor_val_one, Shape.rowMajor_val_two]
    show p.val = p.val * 1 + 0
    omega)

/-- A scalar broadcast to a shape reads, at every index, the scalar. -/
theorem broadcastInDim_scalar_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

end Cert.Sage.Layout

end
-- ==== Proof.RefStep.lean ====
/-
  The reference's node update is the entrywise update.

  Entry (p, q) of `x·Wᵀ + b` on the host is the sum over the contracted axis of `x[p,k] · Wᵀ[k,q]` plus `b[q]` (the bias
  vector made a row and repeated down the rows); the clamp compares with a broadcast scalar zero; the hyperbolic
  tangent and the additions are entrywise.  So the reference's update of the aggregated messages is `Mlp.update` with
  the transposed weight matrices and the bias vectors.
-/
import proofs.«177621_j12335146074640_1_alg».proof.Proof.Rounds
import proofs.«177621_j12335146074640_1_alg».proof.Proof.MlpSpec
import proofs.«177621_j12335146074640_1_alg».proof.Proof.Gen.ReferenceIdeal.Read
import proofs.«177621_j12335146074640_1_alg».proof.Proof.LibDotGeneralAt
import proofs.«177621_j12335146074640_1_alg».proof.Proof.LibHostRowColumn
import proofs.«177621_j12335146074640_1_alg».proof.Proof.LibColumns

noncomputable section

namespace Cert.Rounds

open Cert.ReferenceIdeal Cert.ReferenceIdeal.Gen Idealize.ShloMosaic Idealize.ShloMosaic.ValueIdx

/-- The clamp of a whole array at an entry. -/
theorem relu_at (x : Nodes) (i : S50000x128.Idx) : reluOf x i = Mlp.relu (x i) := by
  unfold reluOf Mlp.relu Mlp.zero
  show max (x i) _ = max (x i) _
  refine congrArg (max (x i)) ?_
  exact Cert.Sage.Layout.broadcastInDim_scalar_apply _ bcast_S_S50000x128 _ i

/-- One dense layer of the reference at entry (p, q). -/
theorem dense_at (x : Nodes) (W : Weights) (b : Bias) (p : Fin 50000) (q : Fin 128) :
    denseOf x W b (ix2 p q) = Mlp.dense (fun k => x (ix2 p k)) (tr W) (fun j => b (ix1 j)) q := by
  unfold denseOf biasRows
  show _ + _ = _ + _
  refine congrArg₂ (· + ·) ?_ ?_
  · simp only [Host.dotGeneral]
    exact Cert.Lib.DotGeneralAt.dotGeneral_at dot_S50000x128_S128x128_S50000x128_1_0_0_1_n_n rfl rfl
      Read.lhs_main_v20_0 Read.lhs_main_v20_1 Read.rhs_main_v20_0 Read.rhs_main_v20_1 none _ x (tr W) p q
  · exact Cert.Lib.HostRowColumn.row_repeated b bcast_S128_S1x128_1 bcast_S1x128_S50000x128_0_1 p q

/-- The reference's update is the entrywise update with the transposed weights. -/
theorem stepOf_eq (agg xw : Nodes) (W₁ : Weights) (b₁ : Bias) (W₂ : Weights) (b₂ : Bias) (W₃ : Weights) (b₃ : Bias) :
    stepOf agg xw W₁ b₁ W₂ b₂ W₃ b₃
      = Mlp.update agg xw (tr W₁) (tr W₂) (tr W₃) (fun j => b₁ (ix1 j)) (fun j => b₂ (ix1 j)) (fun j => b₃ (ix1 j)) := by
  funext i
  obtain ⟨p, q, rfl⟩ : ∃ (p : Fin 50000) (q : Fin 128), i = ix2 p q := ⟨i 0, i 1, eq_ix2 i⟩
  unfold stepOf
  rw [relu_at]
  show Mlp.relu (_ + Ideal.tanh _) = Mlp.relu (_ + Ideal.tanh _)
  refine congrArg Mlp.relu (congrArg₂ (· + ·) rfl (congrArg Ideal.tanh ?_))
  refine (dense_at _ W₃ b₃ p q).trans ?_
  refine congrArg (fun a => Mlp.dense a (tr W₃) _ q) (funext fun k => ?_)
  rw [relu_at]
  refine congrArg Mlp.relu ?_
  refine (dense_at _ W₂ b₂ p k).trans ?_
  refine congrArg (fun a => Mlp.dense a (tr W₂) _ k) (funext fun j => ?_)
  rw [relu_at]
  refine congrArg Mlp.relu ?_
  exact dense_at agg W₁ b₁ p j

/-- One round as the entrywise update of the aggregated messages. -/
def updOf (x : FVec Ideal S50000x64 .f32) (e : IVec S2x800000 32) (Wx : FVec Ideal S128x64 .f32) (bx : Bias)
    (W₁ : Weights) (b₁ : Bias) (W₂ : Weights) (b₂ : Bias) (W₃ : Weights) (b₃ : Bias) (u : Nodes) : Nodes :=
  Mlp.update (aggOf u (srcOf e) (dstOf e)) (xwOf x Wx bx) (tr W₁) (tr W₂) (tr W₃)
    (fun j => b₁ (ix1 j)) (fun j => b₂ (ix1 j)) (fun j => b₃ (ix1 j))

theorem roundOf_eq (x : FVec Ideal S50000x64 .f32) (e : IVec S2x800000 32) (Wx : FVec Ideal S128x64 .f32) (bx : Bias)
    (W₁ : Weights) (b₁ : Bias) (W₂ : Weights) (b₂ : Bias) (W₃ : Weights) (b₃ : Bias) (u : Nodes) :
    roundOf x e Wx bx W₁ b₁ W₂ b₂ W₃ b₃ u = updOf x e Wx bx W₁ b₁ W₂ b₂ W₃ b₃ u :=
  stepOf_eq _ _ W₁ b₁ W₂ b₂ W₃ b₃

/-- The whole reference over the entrywise update. -/
theorem programOf_eq (x : FVec Ideal S50000x64 .f32) (u : Nodes) (e : IVec S2x800000 32) (Wx : FVec Ideal S128x64 .f32) (bx : Bias)
    (W₁ : Weights) (b₁ : Bias) (W₂ : Weights) (b₂ : Bias) (W₃ : Weights) (b₃ : Bias) (Wr : Weights) (br : Bias) :
    programOf x u e Wx bx W₁ b₁ W₂ b₂ W₃ b₃ Wr br
      = tailOf (updOf x e Wx bx W₁ b₁ W₂ b₂ W₃ b₃ (updOf x e Wx bx W₁ b₁ W₂ b₂ W₃ b₃
          (updOf x e Wx bx W₁ b₁ W₂ b₂ W₃ b₃ (updOf x e Wx bx W₁ b₁ W₂ b₂ W₃ b₃ u)))) Wr br := by
  unfold programOf
  simp only [roundOf_eq]

end Cert.Rounds

end
-- ==== Proof.KernelFold.lean ====
/-
  The program's result, read through its segments.

  The program is five stretches of host operations around four pallas calls.  The first stretch computes, once, the
  source and target node of every edge, the projected features, the three transposed weight matrices and the three
  biases as rows, and the first aggregate; each later stretch gathers and adds the previous call's result into the next
  aggregate; the last sums the rows and applies the read-out layer.  No stretch and no call writes a value computed
  once (a call reads them through input windows, which end as they were found), so every call finds the same
  features, weights and biases, and its result array is one more round of the node update.  After the last stretch
  the result buffer holds the read-out of four rounds.
-/
import proofs.«177621_j12335146074640_1_alg».proof.Proof.Gen.KernelIdeal.Frame
import proofs.«177621_j12335146074640_1_alg».proof.Proof.Region0
import proofs.«177621_j12335146074640_1_alg».proof.Proof.Region1
import proofs.«177621_j12335146074640_1_alg».proof.Proof.Region2
import proofs.«177621_j12335146074640_1_alg».proof.Proof.Region3
import proofs.«177621_j12335146074640_1_alg».proof.Proof.RefStep
import Idealize.ShloMosaic.Lib.StableHlo.Run
import Idealize.ShloMosaic.Lib.Pipeline.Value

set_option maxRecDepth 16384

noncomputable section

namespace Cert.KernelIdeal.Fold

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg) (c : Dev nD)

set_option quotPrecheck false

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)

/-- A bias vector recast as one row. -/
def rowOf (b : FVec Ideal S128 .f32) : FVec Ideal S1x128 .f32 := shapeCast S1x128 b shapeCasts_S128_S1x128

/-- The row reads the vector's entry at the column. -/
theorem rowOf_at (b : FVec Ideal S128 .f32) (j : Fin 128) : rowOf b (ix2 (0 : Fin 1) j) = b (ix1 j) :=
  shapeCast_apply b shapeCasts_S128_S1x128 (ix2 (0 : Fin 1) j) (ix1 j) (by
    rw [Shape.rowMajor_val_one, Shape.rowMajor_val_two]
    show j.val = 0 * 128 + j.val
    omega)

/-- What a segment boundary's contents hold of the values computed once. -/
structure Fixed (W : Valuation τ sig (Elt Ideal)) : Prop where
  src : W (Proc.devRef .tc main_v1) = Rounds.srcOf a2
  dst : W (Proc.devRef .tc main_v3) = Rounds.dstOf a2
  xw : W (Proc.devRef .tc main_v8) = Rounds.xwOf a0 a3 a4
  w1 : W (Proc.devRef .tc main_v9) = Rounds.tr a5
  b1 : W (Proc.devRef .tc main_v12) = rowOf a6
  w2 : W (Proc.devRef .tc main_v10) = Rounds.tr a7
  b2 : W (Proc.devRef .tc main_v13) = rowOf a8
  w3 : W (Proc.devRef .tc main_v11) = Rounds.tr a9
  b3 : W (Proc.devRef .tc main_v14) = rowOf a10
  wr : W (Proc.devRef .tc main_arg11) = a11
  br : W (Proc.devRef .tc main_arg12) = a12

/-- One round of the node update at the launch contents of the weights. -/
abbrev upd (u : Rounds.Nodes) : Rounds.Nodes := Rounds.updOf a0 a2 a3 a4 a5 a6 a7 a8 a9 a10 u

/-- With the values computed once in place, a call's update of an aggregate is the update at the launch weights. -/
theorem update_of_fixed {W : Valuation τ sig (Elt Ideal)} (h : Fixed m c W) (agg : Rounds.Nodes) :
    Mlp.update agg (W (Proc.devRef .tc main_v8)) (W (Proc.devRef .tc main_v9)) (W (Proc.devRef .tc main_v10)) (W (Proc.devRef .tc main_v11))
      (fun j => W (Proc.devRef .tc main_v12) (ix2 (0 : Fin 1) j)) (fun j => W (Proc.devRef .tc main_v13) (ix2 (0 : Fin 1) j))
      (fun j => W (Proc.devRef .tc main_v14) (ix2 (0 : Fin 1) j))
    = Mlp.update agg (Rounds.xwOf a0 a3 a4) (Rounds.tr a5) (Rounds.tr a7) (Rounds.tr a9)
      (fun j => a6 (ix1 j)) (fun j => a8 (ix1 j)) (fun j => a10 (ix1 j)) := by
  rw [h.xw, h.w1, h.w2, h.w3, h.b1, h.b2, h.b3]
  simp only [rowOf_at]

/-! ## The first stretch of host operations -/

/-- The first stretch computes the values that every later segment reads and none writes. -/
theorem fixed_W1 : Fixed m c (W1 m ρ c) where
  src := by show StableHlo.after hostOps0 (W0 m ρ c) _ = _; after_results_simp <;> rfl
  dst := by show StableHlo.after hostOps0 (W0 m ρ c) _ = _; after_results_simp <;> rfl
  xw := by show StableHlo.after hostOps0 (W0 m ρ c) _ = _; after_results_simp <;> rfl
  w1 := by show StableHlo.after hostOps0 (W0 m ρ c) _ = _; after_results_simp <;> rfl
  b1 := by show StableHlo.after hostOps0 (W0 m ρ c) _ = _; after_results_simp <;> rfl
  w2 := by show StableHlo.after hostOps0 (W0 m ρ c) _ = _; after_results_simp <;> rfl
  b2 := by show StableHlo.after hostOps0 (W0 m ρ c) _ = _; after_results_simp <;> rfl
  w3 := by show StableHlo.after hostOps0 (W0 m ρ c) _ = _; after_results_simp <;> rfl
  b3 := by show StableHlo.after hostOps0 (W0 m ρ c) _ = _; after_results_simp <;> rfl
  wr := by show StableHlo.after hostOps0 (W0 m ρ c) _ = _; after_results_simp <;> rfl
  br := by show StableHlo.after hostOps0 (W0 m ρ c) _ = _; after_results_simp <;> rfl

/-- The first aggregate: the launch node states gathered and added. -/
theorem agg_W1 : W1 m ρ c (Proc.devRef .tc main_v24) = Rounds.aggOf a1 (Rounds.srcOf a2) (Rounds.dstOf a2) := by
  show StableHlo.after hostOps0 (W0 m ρ c) _ = _
  after_results_simp <;> rfl

/-! ## The four calls and the stretches between them -/

/-- Pallas call 0 leaves the values computed once as it found them: it reads them through input windows, or not at all. -/
theorem fixed_W2 (h : Fixed m c (W1 m ρ c)) : Fixed m c (W2 m ρ c) where
  src := (W2_of_ne m ρ c main_v1 (by decide)).trans h.src
  dst := (W2_of_ne m ρ c main_v3 (by decide)).trans h.dst
  xw := ((W2_arr m ρ c 1).trans (((dat0 (V1 m ρ) c).arrAt_in 1 rfl _).trans (A_eq0 (V1 m ρ) c 1))).trans h.xw
  w1 := ((W2_arr m ρ c 2).trans (((dat0 (V1 m ρ) c).arrAt_in 2 rfl _).trans (A_eq0 (V1 m ρ) c 2))).trans h.w1
  b1 := ((W2_arr m ρ c 3).trans (((dat0 (V1 m ρ) c).arrAt_in 3 rfl _).trans (A_eq0 (V1 m ρ) c 3))).trans h.b1
  w2 := ((W2_arr m ρ c 4).trans (((dat0 (V1 m ρ) c).arrAt_in 4 rfl _).trans (A_eq0 (V1 m ρ) c 4))).trans h.w2
  b2 := ((W2_arr m ρ c 5).trans (((dat0 (V1 m ρ) c).arrAt_in 5 rfl _).trans (A_eq0 (V1 m ρ) c 5))).trans h.b2
  w3 := ((W2_arr m ρ c 6).trans (((dat0 (V1 m ρ) c).arrAt_in 6 rfl _).trans (A_eq0 (V1 m ρ) c 6))).trans h.w3
  b3 := ((W2_arr m ρ c 7).trans (((dat0 (V1 m ρ) c).arrAt_in 7 rfl _).trans (A_eq0 (V1 m ρ) c 7))).trans h.b3
  wr := (W2_of_ne m ρ c main_arg11 (by decide)).trans h.wr
  br := (W2_of_ne m ρ c main_arg12 (by decide)).trans h.br

/-- After pallas call 0 its result array holds 1 round of the update of the launch node states. -/
theorem u1 : W2 m ρ c (Proc.devRef .tc main_v25) = upd m c a1 := by
  refine ((W2_arr m ρ c 8).trans (Region0.final (V1 m ρ) c)).trans ?_
  show Mlp.update (W1 m ρ c (Proc.devRef .tc main_v24)) (W1 m ρ c (Proc.devRef .tc main_v8)) (W1 m ρ c (Proc.devRef .tc main_v9)) (W1 m ρ c (Proc.devRef .tc main_v10)) (W1 m ρ c (Proc.devRef .tc main_v11))
      (fun j => W1 m ρ c (Proc.devRef .tc main_v12) (ix2 (0 : Fin 1) j)) (fun j => W1 m ρ c (Proc.devRef .tc main_v13) (ix2 (0 : Fin 1) j))
      (fun j => W1 m ρ c (Proc.devRef .tc main_v14) (ix2 (0 : Fin 1) j)) = _
  rw [update_of_fixed m c (fixed_W1 m ρ c), agg_W1 m ρ c]
  rfl

/-- The host operations before pallas call 1 write none of the values computed once. -/
theorem fixed_W3 (h : Fixed m c (W2 m ρ c)) : Fixed m c (W3 m ρ c) where
  src := (show StableHlo.after hostOps1 (W2 m ρ c) (Proc.devRef .tc main_v1) = W2 m ρ c (Proc.devRef .tc main_v1) by after_results_simp <;> rfl).trans h.src
  dst := (show StableHlo.after hostOps1 (W2 m ρ c) (Proc.devRef .tc main_v3) = W2 m ρ c (Proc.devRef .tc main_v3) by after_results_simp <;> rfl).trans h.dst
  xw := (show StableHlo.after hostOps1 (W2 m ρ c) (Proc.devRef .tc main_v8) = W2 m ρ c (Proc.devRef .tc main_v8) by after_results_simp <;> rfl).trans h.xw
  w1 := (show StableHlo.after hostOps1 (W2 m ρ c) (Proc.devRef .tc main_v9) = W2 m ρ c (Proc.devRef .tc main_v9) by after_results_simp <;> rfl).trans h.w1
  b1 := (show StableHlo.after hostOps1 (W2 m ρ c) (Proc.devRef .tc main_v12) = W2 m ρ c (Proc.devRef .tc main_v12) by after_results_simp <;> rfl).trans h.b1
  w2 := (show StableHlo.after hostOps1 (W2 m ρ c) (Proc.devRef .tc main_v10) = W2 m ρ c (Proc.devRef .tc main_v10) by after_results_simp <;> rfl).trans h.w2
  b2 := (show StableHlo.after hostOps1 (W2 m ρ c) (Proc.devRef .tc main_v13) = W2 m ρ c (Proc.devRef .tc main_v13) by after_results_simp <;> rfl).trans h.b2
  w3 := (show StableHlo.after hostOps1 (W2 m ρ c) (Proc.devRef .tc main_v11) = W2 m ρ c (Proc.devRef .tc main_v11) by after_results_simp <;> rfl).trans h.w3
  b3 := (show StableHlo.after hostOps1 (W2 m ρ c) (Proc.devRef .tc main_v14) = W2 m ρ c (Proc.devRef .tc main_v14) by after_results_simp <;> rfl).trans h.b3
  wr := (show StableHlo.after hostOps1 (W2 m ρ c) (Proc.devRef .tc main_arg11) = W2 m ρ c (Proc.devRef .tc main_arg11) by after_results_simp <;> rfl).trans h.wr
  br := (show StableHlo.after hostOps1 (W2 m ρ c) (Proc.devRef .tc main_arg12) = W2 m ρ c (Proc.devRef .tc main_arg12) by after_results_simp <;> rfl).trans h.br

/-- Before pallas call 1 the host gathers the source rows of the previous call's result and adds them into their target rows. -/
theorem agg_W3 : W3 m ρ c (Proc.devRef .tc main_v35)
    = Rounds.aggOf (W2 m ρ c (Proc.devRef .tc main_v25)) (W2 m ρ c (Proc.devRef .tc main_v1)) (W2 m ρ c (Proc.devRef .tc main_v3)) := by
  show StableHlo.after hostOps1 (W2 m ρ c) (Proc.devRef .tc main_v35) = _
  after_results_simp <;> rfl

/-- Pallas call 1 leaves the values computed once as it found them: it reads them through input windows, or not at all. -/
theorem fixed_W4 (h : Fixed m c (W3 m ρ c)) : Fixed m c (W4 m ρ c) where
  src := (W4_of_ne m ρ c main_v1 (by decide)).trans h.src
  dst := (W4_of_ne m ρ c main_v3 (by decide)).trans h.dst
  xw := ((W4_arr m ρ c 1).trans (((dat1 (V3 m ρ) c).arrAt_in 1 rfl _).trans (A_eq1 (V3 m ρ) c 1))).trans h.xw
  w1 := ((W4_arr m ρ c 2).trans (((dat1 (V3 m ρ) c).arrAt_in 2 rfl _).trans (A_eq1 (V3 m ρ) c 2))).trans h.w1
  b1 := ((W4_arr m ρ c 3).trans (((dat1 (V3 m ρ) c).arrAt_in 3 rfl _).trans (A_eq1 (V3 m ρ) c 3))).trans h.b1
  w2 := ((W4_arr m ρ c 4).trans (((dat1 (V3 m ρ) c).arrAt_in 4 rfl _).trans (A_eq1 (V3 m ρ) c 4))).trans h.w2
  b2 := ((W4_arr m ρ c 5).trans (((dat1 (V3 m ρ) c).arrAt_in 5 rfl _).trans (A_eq1 (V3 m ρ) c 5))).trans h.b2
  w3 := ((W4_arr m ρ c 6).trans (((dat1 (V3 m ρ) c).arrAt_in 6 rfl _).trans (A_eq1 (V3 m ρ) c 6))).trans h.w3
  b3 := ((W4_arr m ρ c 7).trans (((dat1 (V3 m ρ) c).arrAt_in 7 rfl _).trans (A_eq1 (V3 m ρ) c 7))).trans h.b3
  wr := (W4_of_ne m ρ c main_arg11 (by decide)).trans h.wr
  br := (W4_of_ne m ρ c main_arg12 (by decide)).trans h.br

/-- After pallas call 1 its result array holds 2 rounds of the update of the launch node states. -/
theorem u2 : W4 m ρ c (Proc.devRef .tc main_v36) = upd m c (upd m c a1) := by
  refine ((W4_arr m ρ c 8).trans (Region1.final (V3 m ρ) c)).trans ?_
  show Mlp.update (W3 m ρ c (Proc.devRef .tc main_v35)) (W3 m ρ c (Proc.devRef .tc main_v8)) (W3 m ρ c (Proc.devRef .tc main_v9)) (W3 m ρ c (Proc.devRef .tc main_v10)) (W3 m ρ c (Proc.devRef .tc main_v11))
      (fun j => W3 m ρ c (Proc.devRef .tc main_v12) (ix2 (0 : Fin 1) j)) (fun j => W3 m ρ c (Proc.devRef .tc main_v13) (ix2 (0 : Fin 1) j))
      (fun j => W3 m ρ c (Proc.devRef .tc main_v14) (ix2 (0 : Fin 1) j)) = _
  rw [update_of_fixed m c (fixed_W3 m ρ c (fixed_W2 m ρ c (fixed_W1 m ρ c))), agg_W3 m ρ c, u1 m ρ c, (fixed_W2 m ρ c (fixed_W1 m ρ c)).src, (fixed_W2 m ρ c (fixed_W1 m ρ c)).dst]
  rfl

/-- The host operations before pallas call 2 write none of the values computed once. -/
theorem fixed_W5 (h : Fixed m c (W4 m ρ c)) : Fixed m c (W5 m ρ c) where
  src := (show StableHlo.after hostOps2 (W4 m ρ c) (Proc.devRef .tc main_v1) = W4 m ρ c (Proc.devRef .tc main_v1) by after_results_simp <;> rfl).trans h.src
  dst := (show StableHlo.after hostOps2 (W4 m ρ c) (Proc.devRef .tc main_v3) = W4 m ρ c (Proc.devRef .tc main_v3) by after_results_simp <;> rfl).trans h.dst
  xw := (show StableHlo.after hostOps2 (W4 m ρ c) (Proc.devRef .tc main_v8) = W4 m ρ c (Proc.devRef .tc main_v8) by after_results_simp <;> rfl).trans h.xw
  w1 := (show StableHlo.after hostOps2 (W4 m ρ c) (Proc.devRef .tc main_v9) = W4 m ρ c (Proc.devRef .tc main_v9) by after_results_simp <;> rfl).trans h.w1
  b1 := (show StableHlo.after hostOps2 (W4 m ρ c) (Proc.devRef .tc main_v12) = W4 m ρ c (Proc.devRef .tc main_v12) by after_results_simp <;> rfl).trans h.b1
  w2 := (show StableHlo.after hostOps2 (W4 m ρ c) (Proc.devRef .tc main_v10) = W4 m ρ c (Proc.devRef .tc main_v10) by after_results_simp <;> rfl).trans h.w2
  b2 := (show StableHlo.after hostOps2 (W4 m ρ c) (Proc.devRef .tc main_v13) = W4 m ρ c (Proc.devRef .tc main_v13) by after_results_simp <;> rfl).trans h.b2
  w3 := (show StableHlo.after hostOps2 (W4 m ρ c) (Proc.devRef .tc main_v11) = W4 m ρ c (Proc.devRef .tc main_v11) by after_results_simp <;> rfl).trans h.w3
  b3 := (show StableHlo.after hostOps2 (W4 m ρ c) (Proc.devRef .tc main_v14) = W4 m ρ c (Proc.devRef .tc main_v14) by after_results_simp <;> rfl).trans h.b3
  wr := (show StableHlo.after hostOps2 (W4 m ρ c) (Proc.devRef .tc main_arg11) = W4 m ρ c (Proc.devRef .tc main_arg11) by after_results_simp <;> rfl).trans h.wr
  br := (show StableHlo.after hostOps2 (W4 m ρ c) (Proc.devRef .tc main_arg12) = W4 m ρ c (Proc.devRef .tc main_arg12) by after_results_simp <;> rfl).trans h.br

/-- Before pallas call 2 the host gathers the source rows of the previous call's result and adds them into their target rows. -/
theorem agg_W5 : W5 m ρ c (Proc.devRef .tc main_v46)
    = Rounds.aggOf (W4 m ρ c (Proc.devRef .tc main_v36)) (W4 m ρ c (Proc.devRef .tc main_v1)) (W4 m ρ c (Proc.devRef .tc main_v3)) := by
  show StableHlo.after hostOps2 (W4 m ρ c) (Proc.devRef .tc main_v46) = _
  after_results_simp <;> rfl

/-- Pallas call 2 leaves the values computed once as it found them: it reads them through input windows, or not at all. -/
theorem fixed_W6 (h : Fixed m c (W5 m ρ c)) : Fixed m c (W6 m ρ c) where
  src := (W6_of_ne m ρ c main_v1 (by decide)).trans h.src
  dst := (W6_of_ne m ρ c main_v3 (by decide)).trans h.dst
  xw := ((W6_arr m ρ c 1).trans (((dat2 (V5 m ρ) c).arrAt_in 1 rfl _).trans (A_eq2 (V5 m ρ) c 1))).trans h.xw
  w1 := ((W6_arr m ρ c 2).trans (((dat2 (V5 m ρ) c).arrAt_in 2 rfl _).trans (A_eq2 (V5 m ρ) c 2))).trans h.w1
  b1 := ((W6_arr m ρ c 3).trans (((dat2 (V5 m ρ) c).arrAt_in 3 rfl _).trans (A_eq2 (V5 m ρ) c 3))).trans h.b1
  w2 := ((W6_arr m ρ c 4).trans (((dat2 (V5 m ρ) c).arrAt_in 4 rfl _).trans (A_eq2 (V5 m ρ) c 4))).trans h.w2
  b2 := ((W6_arr m ρ c 5).trans (((dat2 (V5 m ρ) c).arrAt_in 5 rfl _).trans (A_eq2 (V5 m ρ) c 5))).trans h.b2
  w3 := ((W6_arr m ρ c 6).trans (((dat2 (V5 m ρ) c).arrAt_in 6 rfl _).trans (A_eq2 (V5 m ρ) c 6))).trans h.w3
  b3 := ((W6_arr m ρ c 7).trans (((dat2 (V5 m ρ) c).arrAt_in 7 rfl _).trans (A_eq2 (V5 m ρ) c 7))).trans h.b3
  wr := (W6_of_ne m ρ c main_arg11 (by decide)).trans h.wr
  br := (W6_of_ne m ρ c main_arg12 (by decide)).trans h.br

/-- After pallas call 2 its result array holds 3 rounds of the update of the launch node states. -/
theorem u3 : W6 m ρ c (Proc.devRef .tc main_v47) = upd m c (upd m c (upd m c a1)) := by
  refine ((W6_arr m ρ c 8).trans (Region2.final (V5 m ρ) c)).trans ?_
  show Mlp.update (W5 m ρ c (Proc.devRef .tc main_v46)) (W5 m ρ c (Proc.devRef .tc main_v8)) (W5 m ρ c (Proc.devRef .tc main_v9)) (W5 m ρ c (Proc.devRef .tc main_v10)) (W5 m ρ c (Proc.devRef .tc main_v11))
      (fun j => W5 m ρ c (Proc.devRef .tc main_v12) (ix2 (0 : Fin 1) j)) (fun j => W5 m ρ c (Proc.devRef .tc main_v13) (ix2 (0 : Fin 1) j))
      (fun j => W5 m ρ c (Proc.devRef .tc main_v14) (ix2 (0 : Fin 1) j)) = _
  rw [update_of_fixed m c (fixed_W5 m ρ c (fixed_W4 m ρ c (fixed_W3 m ρ c (fixed_W2 m ρ c (fixed_W1 m ρ c))))), agg_W5 m ρ c, u2 m ρ c, (fixed_W4 m ρ c (fixed_W3 m ρ c (fixed_W2 m ρ c (fixed_W1 m ρ c)))).src, (fixed_W4 m ρ c (fixed_W3 m ρ c (fixed_W2 m ρ c (fixed_W1 m ρ c)))).dst]
  rfl

/-- The host operations before pallas call 3 write none of the values computed once. -/
theorem fixed_W7 (h : Fixed m c (W6 m ρ c)) : Fixed m c (W7 m ρ c) where
  src := (show StableHlo.after hostOps3 (W6 m ρ c) (Proc.devRef .tc main_v1) = W6 m ρ c (Proc.devRef .tc main_v1) by after_results_simp <;> rfl).trans h.src
  dst := (show StableHlo.after hostOps3 (W6 m ρ c) (Proc.devRef .tc main_v3) = W6 m ρ c (Proc.devRef .tc main_v3) by after_results_simp <;> rfl).trans h.dst
  xw := (show StableHlo.after hostOps3 (W6 m ρ c) (Proc.devRef .tc main_v8) = W6 m ρ c (Proc.devRef .tc main_v8) by after_results_simp <;> rfl).trans h.xw
  w1 := (show StableHlo.after hostOps3 (W6 m ρ c) (Proc.devRef .tc main_v9) = W6 m ρ c (Proc.devRef .tc main_v9) by after_results_simp <;> rfl).trans h.w1
  b1 := (show StableHlo.after hostOps3 (W6 m ρ c) (Proc.devRef .tc main_v12) = W6 m ρ c (Proc.devRef .tc main_v12) by after_results_simp <;> rfl).trans h.b1
  w2 := (show StableHlo.after hostOps3 (W6 m ρ c) (Proc.devRef .tc main_v10) = W6 m ρ c (Proc.devRef .tc main_v10) by after_results_simp <;> rfl).trans h.w2
  b2 := (show StableHlo.after hostOps3 (W6 m ρ c) (Proc.devRef .tc main_v13) = W6 m ρ c (Proc.devRef .tc main_v13) by after_results_simp <;> rfl).trans h.b2
  w3 := (show StableHlo.after hostOps3 (W6 m ρ c) (Proc.devRef .tc main_v11) = W6 m ρ c (Proc.devRef .tc main_v11) by after_results_simp <;> rfl).trans h.w3
  b3 := (show StableHlo.after hostOps3 (W6 m ρ c) (Proc.devRef .tc main_v14) = W6 m ρ c (Proc.devRef .tc main_v14) by after_results_simp <;> rfl).trans h.b3
  wr := (show StableHlo.after hostOps3 (W6 m ρ c) (Proc.devRef .tc main_arg11) = W6 m ρ c (Proc.devRef .tc main_arg11) by after_results_simp <;> rfl).trans h.wr
  br := (show StableHlo.after hostOps3 (W6 m ρ c) (Proc.devRef .tc main_arg12) = W6 m ρ c (Proc.devRef .tc main_arg12) by after_results_simp <;> rfl).trans h.br

/-- Before pallas call 3 the host gathers the source rows of the previous call's result and adds them into their target rows. -/
theorem agg_W7 : W7 m ρ c (Proc.devRef .tc main_v57)
    = Rounds.aggOf (W6 m ρ c (Proc.devRef .tc main_v47)) (W6 m ρ c (Proc.devRef .tc main_v1)) (W6 m ρ c (Proc.devRef .tc main_v3)) := by
  show StableHlo.after hostOps3 (W6 m ρ c) (Proc.devRef .tc main_v57) = _
  after_results_simp <;> rfl

/-- Pallas call 3 leaves the values computed once as it found them: it reads them through input windows, or not at all. -/
theorem fixed_W8 (h : Fixed m c (W7 m ρ c)) : Fixed m c (W8 m ρ c) where
  src := (W8_of_ne m ρ c main_v1 (by decide)).trans h.src
  dst := (W8_of_ne m ρ c main_v3 (by decide)).trans h.dst
  xw := ((W8_arr m ρ c 1).trans (((dat3 (V7 m ρ) c).arrAt_in 1 rfl _).trans (A_eq3 (V7 m ρ) c 1))).trans h.xw
  w1 := ((W8_arr m ρ c 2).trans (((dat3 (V7 m ρ) c).arrAt_in 2 rfl _).trans (A_eq3 (V7 m ρ) c 2))).trans h.w1
  b1 := ((W8_arr m ρ c 3).trans (((dat3 (V7 m ρ) c).arrAt_in 3 rfl _).trans (A_eq3 (V7 m ρ) c 3))).trans h.b1
  w2 := ((W8_arr m ρ c 4).trans (((dat3 (V7 m ρ) c).arrAt_in 4 rfl _).trans (A_eq3 (V7 m ρ) c 4))).trans h.w2
  b2 := ((W8_arr m ρ c 5).trans (((dat3 (V7 m ρ) c).arrAt_in 5 rfl _).trans (A_eq3 (V7 m ρ) c 5))).trans h.b2
  w3 := ((W8_arr m ρ c 6).trans (((dat3 (V7 m ρ) c).arrAt_in 6 rfl _).trans (A_eq3 (V7 m ρ) c 6))).trans h.w3
  b3 := ((W8_arr m ρ c 7).trans (((dat3 (V7 m ρ) c).arrAt_in 7 rfl _).trans (A_eq3 (V7 m ρ) c 7))).trans h.b3
  wr := (W8_of_ne m ρ c main_arg11 (by decide)).trans h.wr
  br := (W8_of_ne m ρ c main_arg12 (by decide)).trans h.br

/-- After pallas call 3 its result array holds 4 rounds of the update of the launch node states. -/
theorem u4 : W8 m ρ c (Proc.devRef .tc main_v58) = upd m c (upd m c (upd m c (upd m c a1))) := by
  refine ((W8_arr m ρ c 8).trans (Region3.final (V7 m ρ) c)).trans ?_
  show Mlp.update (W7 m ρ c (Proc.devRef .tc main_v57)) (W7 m ρ c (Proc.devRef .tc main_v8)) (W7 m ρ c (Proc.devRef .tc main_v9)) (W7 m ρ c (Proc.devRef .tc main_v10)) (W7 m ρ c (Proc.devRef .tc main_v11))
      (fun j => W7 m ρ c (Proc.devRef .tc main_v12) (ix2 (0 : Fin 1) j)) (fun j => W7 m ρ c (Proc.devRef .tc main_v13) (ix2 (0 : Fin 1) j))
      (fun j => W7 m ρ c (Proc.devRef .tc main_v14) (ix2 (0 : Fin 1) j)) = _
  rw [update_of_fixed m c (fixed_W7 m ρ c (fixed_W6 m ρ c (fixed_W5 m ρ c (fixed_W4 m ρ c (fixed_W3 m ρ c (fixed_W2 m ρ c (fixed_W1 m ρ c))))))), agg_W7 m ρ c, u3 m ρ c, (fixed_W6 m ρ c (fixed_W5 m ρ c (fixed_W4 m ρ c (fixed_W3 m ρ c (fixed_W2 m ρ c (fixed_W1 m ρ c)))))).src, (fixed_W6 m ρ c (fixed_W5 m ρ c (fixed_W4 m ρ c (fixed_W3 m ρ c (fixed_W2 m ρ c (fixed_W1 m ρ c)))))).dst]
  rfl

/-! ## The read-out -/

/-- The program's result buffer after the last stretch: the read-out of four rounds. -/
theorem value : W9 m ρ c (Proc.devRef .tc main_v64)
    = Rounds.tailOf (upd m c (upd m c (upd m c (upd m c a1)))) a11 a12 := by
  have hf := fixed_W8 m ρ c (fixed_W7 m ρ c (fixed_W6 m ρ c (fixed_W5 m ρ c (fixed_W4 m ρ c (fixed_W3 m ρ c (fixed_W2 m ρ c (fixed_W1 m ρ c)))))))
  have e : W9 m ρ c (Proc.devRef .tc main_v64)
      = Rounds.tailOf (W8 m ρ c (Proc.devRef .tc main_v58)) (W8 m ρ c (Proc.devRef .tc main_arg11)) (W8 m ρ c (Proc.devRef .tc main_arg12)) := by
    show StableHlo.after hostOps4 (W8 m ρ c) _ = _
    after_results_simp <;> rfl
  rw [e, u4 m ρ c, hf.wr, hf.br]

end Cert.KernelIdeal.Fold

end
-- ==== Proof.lean ====
/-
  The kernel program and its reference compute the same read-out on the extended reals.

  Both programs run four rounds of message passing over a graph of 50000 nodes and 800000 edges and read the result
  out: each round gathers the source rows of the node states along the edges, adds them into their target rows,
  passes every node's aggregate through three dense layers (clamp, clamp, hyperbolic tangent), adds the node's
  projected features and clamps; the read-out sums the rows and applies one dense layer.  The reference does all of
  it with host operations.  The kernel program does the gathering, adding and read-out with the same host operations
  and the three dense layers of each round in a pallas call over 25 row blocks, with the weight matrices transposed
  once beforehand.

  On the extended reals a change of float format is the identity and a matrix product, in a kernel or on the host,
  is at each entry the sum over the contracted axis of the products.  An entry of a node's update depends only on
  that node's row of the aggregate, so each pallas call's result array is the entrywise update of the whole arrays
  (`Region0` … `Region3`, over `KernelBody`), and the reference's host layers are the same entrywise update
  (`RefStep`).  The values computed once are the same in every round (`KernelFold`), so the kernel program's result
  buffer holds the read-out of four rounds of that update (`KernelFold.value`, over the run `KernelRun`), which is
  what the reference's result unfolds to (`Rounds`).  Sums of extended reals over a finite index type need no
  finiteness, so the precondition is not used.  The ideal pass rewrote nothing, so `preserves` is trivial.
-/
import proofs.«177621_j12335146074640_1_alg».proof.Defs
import proofs.«177621_j12335146074640_1_alg».proof.Proof.Gen.Kernel
import proofs.«177621_j12335146074640_1_alg».proof.Proof.Gen.Kernel.Frame
import proofs.«177621_j12335146074640_1_alg».proof.Proof.Gen.KernelIdeal
import proofs.«177621_j12335146074640_1_alg».proof.Proof.Gen.KernelIdeal.Frame
import proofs.«177621_j12335146074640_1_alg».proof.Proof.Gen.ReferenceIdeal
import proofs.«177621_j12335146074640_1_alg».proof.Proof.Gen.Pre_finite_inputs
import proofs.«177621_j12335146074640_1_alg».proof.Proof.Gen.ReferenceIdeal.Run
import proofs.«177621_j12335146074640_1_alg».proof.Proof.Gen.ReferenceIdeal.Read
import proofs.«177621_j12335146074640_1_alg».proof.Proof.KernelRun
import proofs.«177621_j12335146074640_1_alg».proof.Proof.KernelFold
import proofs.«177621_j12335146074640_1_alg».proof.Proof.RefStep
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference runs and leaves its arguments: its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both programs end with the read-out of four rounds of the entrywise update of arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, (θ_run Cert.KernelIdeal.defs _ _).mono (fun r h c => ⟨(h c).1.trans (Cert.KernelIdeal.Fold.value m ρ c), (h c).2⟩)
    (Cert.KernelIdeal.Run.run_value (F := Ideal) m ρ), ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.Rounds.result_eq, Cert.Rounds.programOf_eq, h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
